-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128 .f32) (main_arg10 : FVec F S128x64 .f32) (main_arg11 : FVec F S128x64 .f32) (main_arg12 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x64 .f32) (main_arg11 : FVec F S128x64 .f32) (main_arg12 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S200000x64 .f32) (main_arg1 : FVec F S100000x64 .f32) (main_arg2 : IVec S1000000 32) (main_arg3 : IVec S1000000 32) (main_arg4 : FVec F S64x128 .f32) (main_arg5 : FVec F S64x128 .f32) (main_arg6 : FVec F S128 .f32) (main_arg7 : FVec F S128x128 .f32) (main_arg8 : FVec F S128x128 .f32) (main_arg9 : FVec F S128 .f32) (main_arg10 : FVec F S128x64 .f32) (main_arg11 : FVec F S128x64 .f32) (main_arg12 : FVec F S64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_v13 main_v16
-- ==== Kernel.lean ====
abbrev S200000x64 : Shape := ⟨2, ![200000, 64]⟩
abbrev S100000x64 : Shape := ⟨2, ![100000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S200000 : Shape := ⟨1, ![200000]⟩
abbrev S1000000x1 : Shape := ⟨2, ![1000000, 1]⟩
abbrev S100000 : Shape := ⟨1, ![100000]⟩
abbrev S1000000x64 : Shape := ⟨2, ![1000000, 64]⟩
abbrev S200000x1 : Shape := ⟨2, ![200000, 1]⟩
abbrev S100000x1 : Shape := ⟨2, ![100000, 1]⟩
abbrev S200000x128 : Shape := ⟨2, ![200000, 128]⟩
abbrev S100000x128 : Shape := ⟨2, ![100000, 128]⟩
abbrev S300000x128 : Shape := ⟨2, ![300000, 128]⟩
abbrev S303104x128 : Shape := ⟨2, ![303104, 128]⟩
abbrev S1x128 : Shape := ⟨2, ![1, 128]⟩
abbrev S4096x128 : Shape := ⟨2, ![4096, 128]⟩
abbrev S1000000x128 : Shape := ⟨2, ![1000000, 128]⟩
abbrev S200000x256 : Shape := ⟨2, ![200000, 256]⟩
abbrev S100000x256 : Shape := ⟨2, ![100000, 256]⟩
abbrev S300000x256 : Shape := ⟨2, ![300000, 256]⟩
abbrev S256x128 : Shape := ⟨2, ![256, 128]⟩
abbrev S303104x256 : Shape := ⟨2, ![303104, 256]⟩
abbrev S4096x256 : Shape := ⟨2, ![4096, 256]⟩
abbrev S256x64 : Shape := ⟨2, ![256, 64]⟩
abbrev S1x64 : Shape := ⟨2, ![1, 64]⟩
abbrev S303104x64 : Shape := ⟨2, ![303104, 64]⟩
abbrev S4096x64 : Shape := ⟨2, ![4096, 64]⟩
abbrev S300000x64 : Shape := ⟨2, ![300000, 64]⟩

abbrev nBuf : Space → Nat
  | .hbm => 181
  | .vmem => 18
  | .smem => 0
  | _ => 0

abbrev hbmTy0_0 (i : Nat) : BufTy := match i % 128 with
  | 0 => ⟨S200000x64, .f32⟩
  | 1 => ⟨S100000x64, .f32⟩
  | 2 => ⟨S1000000, .i32⟩
  | 3 => ⟨S1000000, .i32⟩
  | 4 => ⟨S64x128, .f32⟩
  | 5 => ⟨S64x128, .f32⟩
  | 6 => ⟨S128, .f32⟩
  | 7 => ⟨S128x128, .f32⟩
  | 8 => ⟨S128x128, .f32⟩
  | 9 => ⟨S128, .f32⟩
  | 10 => ⟨S128x64, .f32⟩
  | 11 => ⟨S128x64, .f32⟩
  | 12 => ⟨S64, .f32⟩
  | 13 => ⟨S_, .f32⟩
  | 14 => ⟨S1000000, .f32⟩
  | 15 => ⟨S_, .f32⟩
  | 16 => ⟨S200000, .f32⟩
  | 17 => ⟨S1000000x1, .i32⟩
  | 18 => ⟨S200000, .f32⟩
  | 19 => ⟨S_, .f32⟩
  | 20 => ⟨S200000, .f32⟩
  | 21 => ⟨S200000, .f32⟩
  | 22 => ⟨S_, .f32⟩
  | 23 => ⟨S1000000, .f32⟩
  | 24 => ⟨S_, .f32⟩
  | 25 => ⟨S100000, .f32⟩
  | 26 => ⟨S1000000x1, .i32⟩
  | 27 => ⟨S100000, .f32⟩
  | 28 => ⟨S_, .f32⟩
  | 29 => ⟨S100000, .f32⟩
  | 30 => ⟨S100000, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x64, .f32⟩
  | 40 => ⟨S_, .f32⟩
  | 41 => ⟨S200000x64, .f32⟩
  | 42 => ⟨S1000000x1, .i32⟩
  | 43 => ⟨S200000x64, .f32⟩
  | 44 => ⟨S200000x1, .f32⟩
  | 45 => ⟨S200000x64, .f32⟩
  | 46 => ⟨S200000x64, .f32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000x64, .f32⟩
  | 56 => ⟨S_, .f32⟩
  | 57 => ⟨S100000x64, .f32⟩
  | 58 => ⟨S1000000x1, .i32⟩
  | 59 => ⟨S100000x64, .f32⟩
  | 60 => ⟨S100000x1, .f32⟩
  | 61 => ⟨S100000x64, .f32⟩
  | 62 => ⟨S100000x64, .f32⟩
  | 63 => ⟨S200000x128, .f32⟩
  | 64 => ⟨S100000x128, .f32⟩
  | 65 => ⟨S300000x128, .f32⟩
  | 66 => ⟨S128x128, .f32⟩
  | 67 => ⟨S300000x128, .bf16⟩
  | 68 => ⟨S_, .i32⟩
  | 69 => ⟨S_, .bf16⟩
  | 70 => ⟨S303104x128, .bf16⟩
  | 71 => ⟨S128x128, .bf16⟩
  | 72 => ⟨S1x128, .f32⟩
  | 73 => ⟨S303104x128, .f32⟩
  | 74 => ⟨S300000x128, .f32⟩
  | 75 => ⟨S200000x128, .f32⟩
  | 76 => ⟨S100000x128, .f32⟩
  | 77 => ⟨S_, .f32⟩
  | 78 => ⟨S200000x128, .f32⟩
  | 79 => ⟨S200000x128, .f32⟩
  | 80 => ⟨S_, .f32⟩
  | 81 => ⟨S100000x128, .f32⟩
  | 82 => ⟨S100000x128, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000x128, .f32⟩
  | 92 => ⟨S_, .f32⟩
  | 93 => ⟨S200000x128, .f32⟩
  | 94 => ⟨S1000000x1, .i32⟩
  | 95 => ⟨S200000x128, .f32⟩
  | 96 => ⟨S200000x1, .f32⟩
  | 97 => ⟨S200000x128, .f32⟩
  | 98 => ⟨S200000x128, .f32⟩
  | 99 => ⟨S_, .i32⟩
  | 100 => ⟨S1000000, .i32⟩
  | 101 => ⟨S1000000, .i1⟩
  | 102 => ⟨S_, .i32⟩
  | 103 => ⟨S1000000, .i32⟩
  | 104 => ⟨S1000000, .i32⟩
  | 105 => ⟨S1000000, .i32⟩
  | 106 => ⟨S1000000x1, .i32⟩
  | 107 => ⟨S1000000x128, .f32⟩
  | 108 => ⟨S_, .f32⟩
  | 109 => ⟨S100000x128, .f32⟩
  | 110 => ⟨S1000000x1, .i32⟩
  | 111 => ⟨S100000x128, .f32⟩
  | 112 => ⟨S100000x1, .f32⟩
  | 113 => ⟨S100000x128, .f32⟩
  | 114 => ⟨S100000x128, .f32⟩
  | 115 => ⟨S200000x256, .f32⟩
  | 116 => ⟨S100000x256, .f32⟩
  | 117 => ⟨S300000x256, .f32⟩
  | 118 => ⟨S256x128, .f32⟩
  | 119 => ⟨S300000x256, .bf16⟩
  | 120 => ⟨S_, .i32⟩
  | 121 => ⟨S_, .bf16⟩
  | 122 => ⟨S303104x256, .bf16⟩
  | 123 => ⟨S256x128, .bf16⟩
  | 124 => ⟨S1x128, .f32⟩
  | 125 => ⟨S303104x128, .f32⟩
  | 126 => ⟨S300000x128, .f32⟩
  | 127 => ⟨S200000x128, .f32⟩
  | _ => ⟨S200000x64, .f32⟩

abbrev hbmTy0_1 (i : Nat) : BufTy := match i % 128 with
  | 0 => ⟨S100000x128, .f32⟩
  | 1 => ⟨S_, .f32⟩
  | 2 => ⟨S200000x128, .f32⟩
  | 3 => ⟨S200000x128, .f32⟩
  | 4 => ⟨S_, .f32⟩
  | 5 => ⟨S100000x128, .f32⟩
  | 6 => ⟨S100000x128, .f32⟩
  | 7 => ⟨S_, .i32⟩
  | 8 => ⟨S1000000, .i32⟩
  | 9 => ⟨S1000000, .i1⟩
  | 10 => ⟨S_, .i32⟩
  | 11 => ⟨S1000000, .i32⟩
  | 12 => ⟨S1000000, .i32⟩
  | 13 => ⟨S1000000, .i32⟩
  | 14 => ⟨S1000000x1, .i32⟩
  | 15 => ⟨S1000000x128, .f32⟩
  | 16 => ⟨S_, .f32⟩
  | 17 => ⟨S200000x128, .f32⟩
  | 18 => ⟨S1000000x1, .i32⟩
  | 19 => ⟨S200000x128, .f32⟩
  | 20 => ⟨S200000x1, .f32⟩
  | 21 => ⟨S200000x128, .f32⟩
  | 22 => ⟨S200000x128, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x128, .f32⟩
  | 32 => ⟨S_, .f32⟩
  | 33 => ⟨S100000x128, .f32⟩
  | 34 => ⟨S1000000x1, .i32⟩
  | 35 => ⟨S100000x128, .f32⟩
  | 36 => ⟨S100000x1, .f32⟩
  | 37 => ⟨S100000x128, .f32⟩
  | 38 => ⟨S100000x128, .f32⟩
  | 39 => ⟨S200000x256, .f32⟩
  | 40 => ⟨S100000x256, .f32⟩
  | 41 => ⟨S300000x256, .f32⟩
  | 42 => ⟨S256x64, .f32⟩
  | 43 => ⟨S300000x256, .bf16⟩
  | 44 => ⟨S_, .i32⟩
  | 45 => ⟨S_, .bf16⟩
  | 46 => ⟨S303104x256, .bf16⟩
  | 47 => ⟨S256x64, .bf16⟩
  | 48 => ⟨S1x64, .f32⟩
  | 49 => ⟨S303104x64, .f32⟩
  | 50 => ⟨S300000x64, .f32⟩
  | 51 => ⟨S200000x64, .f32⟩
  | 52 => ⟨S100000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S128x128, .bf16⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | .local _ .vmem, ⟨6, _⟩ => ⟨S4096x256, .bf16⟩
  | .local _ .vmem, ⟨7, _⟩ => ⟨S4096x256, .bf16⟩
  | .local _ .vmem, ⟨8, _⟩ => ⟨S256x128, .bf16⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | .local _ .vmem, ⟨12, _⟩ => ⟨S4096x256, .bf16⟩
  | .local _ .vmem, ⟨13, _⟩ => ⟨S4096x256, .bf16⟩
  | .local _ .vmem, ⟨14, _⟩ => ⟨S256x64, .bf16⟩
  | .local _ .vmem, ⟨15, _⟩ => ⟨S1x64, .f32⟩
  | .local _ .vmem, ⟨16, _⟩ => ⟨S4096x64, .f32⟩
  | .local _ .vmem, ⟨17, _⟩ => ⟨S4096x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_cst_3 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_c_8 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_call0_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call1_cst : Ref sig .tc := ⟨.hbm, 77, rfl⟩
abbrev main_call1_v0 : Ref sig .tc := ⟨.hbm, 78, rfl⟩
abbrev main_v50 : Ref sig .tc := ⟨.hbm, 79, rfl⟩
abbrev main_call2_cst : Ref sig .tc := ⟨.hbm, 80, rfl⟩
abbrev main_call2_v0 : Ref sig .tc := ⟨.hbm, 81, rfl⟩
abbrev main_v51 : Ref sig .tc := ⟨.hbm, 82, rfl⟩
abbrev main_c_11 : Ref sig .tc := ⟨.hbm, 83, rfl⟩
abbrev main_v52 : Ref sig .tc := ⟨.hbm, 84, rfl⟩
abbrev main_v53 : Ref sig .tc := ⟨.hbm, 85, rfl⟩
abbrev main_c_12 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_14 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_17 : Ref sig .tc := ⟨.hbm, 120, rfl⟩
abbrev main_call3_v0 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_call4_cst : Ref sig .tc := ⟨.hbm, 129, rfl⟩
abbrev main_call4_v0 : Ref sig .tc := ⟨.hbm, 130, rfl⟩
abbrev main_v90 : Ref sig .tc := ⟨.hbm, 131, rfl⟩
abbrev main_call5_cst : Ref sig .tc := ⟨.hbm, 132, rfl⟩
abbrev main_call5_v0 : Ref sig .tc := ⟨.hbm, 133, rfl⟩
abbrev main_v91 : Ref sig .tc := ⟨.hbm, 134, rfl⟩
abbrev main_c_18 : Ref sig .tc := ⟨.hbm, 135, rfl⟩
abbrev main_v92 : Ref sig .tc := ⟨.hbm, 136, rfl⟩
abbrev main_v93 : Ref sig .tc := ⟨.hbm, 137, rfl⟩
abbrev main_c_19 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_20 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_21 : Ref sig .tc := ⟨.hbm, 151, rfl⟩
abbrev main_v105 : Ref sig .tc := ⟨.hbm, 152, rfl⟩
abbrev main_v106 : Ref sig .tc := ⟨.hbm, 153, rfl⟩
abbrev main_c_22 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_23 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_c_24 : Ref sig .tc := ⟨.hbm, 172, rfl⟩
abbrev main_call6_v0 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![74], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![74], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![74], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  bcast_S_S100000 : S_.BroadcastsInDim S100000 (![] : Fin 0 → Fin S100000.rank)
  bcast_S_S200000x64 : S_.BroadcastsInDim S200000x64 (![] : Fin 0 → Fin S200000x64.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S200000x64_S200000x64_S200000x128_d1 : Shape.Concatenates [S200000x64, S200000x64] S200000x128 1
  concatenates_S100000x64_S100000x64_S100000x128_d1 : Shape.Concatenates [S100000x64, S100000x64] S100000x128 1
  concatenates_S200000x128_S100000x128_S300000x128_d0 : Shape.Concatenates [S200000x128, S100000x128] S300000x128 0
  concatenates_S64x128_S64x128_S128x128_d0 : Shape.Concatenates [S64x128, S64x128] S128x128 0
  bitsLt_bf16_f32 : FTy.bits .bf16 < FTy.bits .f32
  pads_S300000x128_S303104x128_031040_000 : S300000x128.Pads (![0, 0] : Fin 2 → Nat) ![3104, 0] ![0, 0] S303104x128
  h_S_ : 0 < S_.numel
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S303104x128_S300000x128_0_0 : S303104x128.Slices ![0, 0] S300000x128
  slices_S300000x128_S200000x128_0_0 : S300000x128.Slices ![0, 0] S200000x128
  slices_S300000x128_S100000x128_200000_0 : S300000x128.Slices ![200000, 0] S100000x128
  bcast_S_S200000x128 : S_.BroadcastsInDim S200000x128 (![] : Fin 0 → Fin S200000x128.rank)
  bcast_S_S100000x128 : S_.BroadcastsInDim S100000x128 (![] : Fin 0 → Fin S100000x128.rank)
  bcast_S200000x1_S200000x128_0_1 : S200000x1.BroadcastsInDim S200000x128 (![0, 1] : Fin 2 → Fin S200000x128.rank)
  bcast_S100000x1_S100000x128_0_1 : S100000x1.BroadcastsInDim S100000x128 (![0, 1] : Fin 2 → Fin S100000x128.rank)
  concatenates_S200000x128_S200000x128_S200000x256_d1 : Shape.Concatenates [S200000x128, S200000x128] S200000x256 1
  concatenates_S100000x128_S100000x128_S100000x256_d1 : Shape.Concatenates [S100000x128, S100000x128] S100000x256 1
  concatenates_S200000x256_S100000x256_S300000x256_d0 : Shape.Concatenates [S200000x256, S100000x256] S300000x256 0
  concatenates_S128x128_S128x128_S256x128_d0 : Shape.Concatenates [S128x128, S128x128] S256x128 0
  pads_S300000x256_S303104x256_031040_000 : S300000x256.Pads (![0, 0] : Fin 2 → Nat) ![3104, 0] ![0, 0] S303104x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  concatenates_S128x64_S128x64_S256x64_d0 : Shape.Concatenates [S128x64, S128x64] S256x64 0
  shapeCasts_S64_S1x64 : S64.ShapeCasts S1x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  slices_S303104x64_S300000x64_0_0 : S303104x64.Slices ![0, 0] S300000x64
  slices_S300000x64_S200000x64_0_0 : S300000x64.Slices ![0, 0] S200000x64
  slices_S300000x64_S100000x64_200000_0 : S300000x64.Slices ![200000, 0] S100000x64
  scatter_S200000_S1000000x1_S1000000_n_0_0_1_wf : ScatterDims.WF S200000 S1000000x1 S1000000 [] [0] [0] 1
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  dot_S4096x128_S128x128_S4096x128_1_0_0_1_n_n_wf : DotDims.WF S4096x128 S128x128 S4096x128 [1] [0] [0] [1] [] []
  gather_S100000x128_S1000000x1_S1000000x128_1_0_n_n_0_1_1128_wf : GatherDims.WF S100000x128 S1000000x1 S1000000x128 [1] [0] [] [0] [] 1 ![1, 128]
  scatter_S200000x128_S1000000x1_S1000000x128_1_0_0_1_wf : ScatterDims.WF S200000x128 S1000000x1 S1000000x128 [1] [0] [0] 1
  gather_S200000x128_S1000000x1_S1000000x128_1_0_n_n_0_1_1128_wf : GatherDims.WF S200000x128 S1000000x1 S1000000x128 [1] [0] [] [0] [] 1 ![1, 128]
  scatter_S100000x128_S1000000x1_S1000000x128_1_0_0_1_wf : ScatterDims.WF S100000x128 S1000000x1 S1000000x128 [1] [0] [0] 1
  dot_S4096x256_S256x128_S4096x128_1_0_0_1_n_n_wf : DotDims.WF S4096x256 S256x128 S4096x128 [1] [0] [0] [1] [] []
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S303104x128.size a
  hwx0_0 : ∀ i : grid0.Coords, EltTy.bits .bf16 = 32 ∨ (Rect.block (s := S303104x128) S4096x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S303104x128.size a
  hwx0_3 : ∀ i : grid0.Coords, EltTy.bits .f32 = 32 ∨ (Rect.block (s := S303104x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S303104x256.size a
  hwx1_0 : ∀ i : grid1.Coords, EltTy.bits .bf16 = 32 ∨ (Rect.block (s := S303104x256) S4096x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S303104x128.size a
  hwx1_3 : ∀ i : grid1.Coords, EltTy.bits .f32 = 32 ∨ (Rect.block (s := S303104x128) S4096x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S303104x256.size a
  hwx2_0 : ∀ i : grid2.Coords, EltTy.bits .bf16 = 32 ∨ (Rect.block (s := S303104x256) S4096x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .bf16 = 32 ∨ (Rect.block (s := S256x64) S256x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x64.size a ≤ S303104x64.size a
  hwx2_3 : ∀ i : grid2.Coords, EltTy.bits .f32 = 32 ∨ (Rect.block (s := S303104x64) S4096x64.size (cc2_transform_3 i) (hinb2_3 i)).WholeWords (EltTy.packing .f32)

variable [Facts₀]

def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_v43) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v83) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v85) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v86) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v123) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v124) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v125) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v126) S4096x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S200000 : Shape := ⟨1, ![200000]⟩
abbrev S1000000x1 : Shape := ⟨2, ![1000000, 1]⟩
abbrev S100000 : Shape := ⟨1, ![100000]⟩
abbrev S1000000x64 : Shape := ⟨2, ![1000000, 64]⟩
abbrev S200000x1 : Shape := ⟨2, ![200000, 1]⟩
abbrev S200000x128 : Shape := ⟨2, ![200000, 128]⟩
abbrev S1x128 : Shape := ⟨2, ![1, 128]⟩
abbrev S100000x1 : Shape := ⟨2, ![100000, 1]⟩
abbrev S100000x128 : Shape := ⟨2, ![100000, 128]⟩
abbrev S1000000x128 : Shape := ⟨2, ![1000000, 128]⟩
abbrev S1x64 : Shape := ⟨2, ![1, 64]⟩

abbrev nBuf : Space → Nat
  | .hbm => 175
  | .vmem => 0
  | .smem => 0
  | _ => 0

abbrev hbmTy0_0 (i : Nat) : BufTy := match i % 128 with
  | 0 => ⟨S200000x64, .f32⟩
  | 1 => ⟨S100000x64, .f32⟩
  | 2 => ⟨S1000000, .i32⟩
  | 3 => ⟨S1000000, .i32⟩
  | 4 => ⟨S64x128, .f32⟩
  | 5 => ⟨S64x128, .f32⟩
  | 6 => ⟨S128, .f32⟩
  | 7 => ⟨S128x128, .f32⟩
  | 8 => ⟨S128x128, .f32⟩
  | 9 => ⟨S128, .f32⟩
  | 10 => ⟨S128x64, .f32⟩
  | 11 => ⟨S128x64, .f32⟩
  | 12 => ⟨S64, .f32⟩
  | 13 => ⟨S_, .f32⟩
  | 14 => ⟨S1000000, .f32⟩
  | 15 => ⟨S_, .f32⟩
  | 16 => ⟨S200000, .f32⟩
  | 17 => ⟨S1000000x1, .i32⟩
  | 18 => ⟨S200000, .f32⟩
  | 19 => ⟨S_, .f32⟩
  | 20 => ⟨S200000, .f32⟩
  | 21 => ⟨S200000, .f32⟩
  | 22 => ⟨S_, .f32⟩
  | 23 => ⟨S1000000, .f32⟩
  | 24 => ⟨S_, .f32⟩
  | 25 => ⟨S100000, .f32⟩
  | 26 => ⟨S1000000x1, .i32⟩
  | 27 => ⟨S100000, .f32⟩
  | 28 => ⟨S_, .f32⟩
  | 29 => ⟨S100000, .f32⟩
  | 30 => ⟨S100000, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x64, .f32⟩
  | 40 => ⟨S_, .f32⟩
  | 41 => ⟨S200000x64, .f32⟩
  | 42 => ⟨S1000000x1, .i32⟩
  | 43 => ⟨S200000x64, .f32⟩
  | 44 => ⟨S200000x1, .f32⟩
  | 45 => ⟨S200000x64, .f32⟩
  | 46 => ⟨S200000x64, .f32⟩
  | 47 => ⟨S200000x128, .f32⟩
  | 48 => ⟨S1x128, .f32⟩
  | 49 => ⟨S200000x128, .f32⟩
  | 50 => ⟨S200000x128, .f32⟩
  | 51 => ⟨S200000x128, .f32⟩
  | 52 => ⟨S200000x128, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x64, .f32⟩
  | 62 => ⟨S_, .f32⟩
  | 63 => ⟨S100000x64, .f32⟩
  | 64 => ⟨S1000000x1, .i32⟩
  | 65 => ⟨S100000x64, .f32⟩
  | 66 => ⟨S100000x1, .f32⟩
  | 67 => ⟨S100000x64, .f32⟩
  | 68 => ⟨S100000x64, .f32⟩
  | 69 => ⟨S100000x128, .f32⟩
  | 70 => ⟨S1x128, .f32⟩
  | 71 => ⟨S100000x128, .f32⟩
  | 72 => ⟨S100000x128, .f32⟩
  | 73 => ⟨S100000x128, .f32⟩
  | 74 => ⟨S100000x128, .f32⟩
  | 75 => ⟨S_, .f32⟩
  | 76 => ⟨S200000x128, .f32⟩
  | 77 => ⟨S200000x128, .f32⟩
  | 78 => ⟨S_, .f32⟩
  | 79 => ⟨S100000x128, .f32⟩
  | 80 => ⟨S100000x128, .f32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000x128, .f32⟩
  | 90 => ⟨S_, .f32⟩
  | 91 => ⟨S200000x128, .f32⟩
  | 92 => ⟨S1000000x1, .i32⟩
  | 93 => ⟨S200000x128, .f32⟩
  | 94 => ⟨S200000x1, .f32⟩
  | 95 => ⟨S200000x128, .f32⟩
  | 96 => ⟨S200000x128, .f32⟩
  | 97 => ⟨S200000x128, .f32⟩
  | 98 => ⟨S1x128, .f32⟩
  | 99 => ⟨S200000x128, .f32⟩
  | 100 => ⟨S200000x128, .f32⟩
  | 101 => ⟨S200000x128, .f32⟩
  | 102 => ⟨S200000x128, .f32⟩
  | 103 => ⟨S_, .i32⟩
  | 104 => ⟨S1000000, .i32⟩
  | 105 => ⟨S1000000, .i1⟩
  | 106 => ⟨S_, .i32⟩
  | 107 => ⟨S1000000, .i32⟩
  | 108 => ⟨S1000000, .i32⟩
  | 109 => ⟨S1000000, .i32⟩
  | 110 => ⟨S1000000x1, .i32⟩
  | 111 => ⟨S1000000x128, .f32⟩
  | 112 => ⟨S_, .f32⟩
  | 113 => ⟨S100000x128, .f32⟩
  | 114 => ⟨S1000000x1, .i32⟩
  | 115 => ⟨S100000x128, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S100000x128, .f32⟩
  | 124 => ⟨S100000x128, .f32⟩
  | 125 => ⟨S_, .f32⟩
  | 126 => ⟨S200000x128, .f32⟩
  | 127 => ⟨S200000x128, .f32⟩
  | _ => ⟨S200000x64, .f32⟩

abbrev hbmTy0_1 (i : Nat) : BufTy := match i % 128 with
  | 0 => ⟨S_, .f32⟩
  | 1 => ⟨S100000x128, .f32⟩
  | 2 => ⟨S100000x128, .f32⟩
  | 3 => ⟨S_, .i32⟩
  | 4 => ⟨S1000000, .i32⟩
  | 5 => ⟨S1000000, .i1⟩
  | 6 => ⟨S_, .i32⟩
  | 7 => ⟨S1000000, .i32⟩
  | 8 => ⟨S1000000, .i32⟩
  | 9 => ⟨S1000000, .i32⟩
  | 10 => ⟨S1000000x1, .i32⟩
  | 11 => ⟨S1000000x128, .f32⟩
  | 12 => ⟨S_, .f32⟩
  | 13 => ⟨S200000x128, .f32⟩
  | 14 => ⟨S1000000x1, .i32⟩
  | 15 => ⟨S200000x128, .f32⟩
  | 16 => ⟨S200000x1, .f32⟩
  | 17 => ⟨S200000x128, .f32⟩
  | 18 => ⟨S200000x128, .f32⟩
  | 19 => ⟨S200000x64, .f32⟩
  | 20 => ⟨S1x64, .f32⟩
  | 21 => ⟨S200000x64, .f32⟩
  | 22 => ⟨S200000x64, .f32⟩
  | 23 => ⟨S200000x64, .f32⟩
  | 24 => ⟨S200000x64, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x128, .f32⟩
  | 34 => ⟨S_, .f32⟩
  | 35 => ⟨S100000x128, .f32⟩
  | 36 => ⟨S1000000x1, .i32⟩
  | 37 => ⟨S100000x128, .f32⟩
  | 38 => ⟨S100000x1, .f32⟩
  | 39 => ⟨S100000x128, .f32⟩
  | 40 => ⟨S100000x128, .f32⟩
  | 41 => ⟨S100000x64, .f32⟩
  | 42 => ⟨S1x64, .f32⟩
  | 43 => ⟨S100000x64, .f32⟩
  | 44 => ⟨S100000x64, .f32⟩
  | 45 => ⟨S100000x64, .f32⟩
  | 46 => ⟨S100000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_cst_3 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call0_cst : Ref sig .tc := ⟨.hbm, 75, rfl⟩
abbrev main_call0_v0 : Ref sig .tc := ⟨.hbm, 76, rfl⟩
abbrev main_v50 : Ref sig .tc := ⟨.hbm, 77, rfl⟩
abbrev main_call1_cst : Ref sig .tc := ⟨.hbm, 78, rfl⟩
abbrev main_call1_v0 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_13 : Ref sig .tc := ⟨.hbm, 103, rfl⟩
abbrev main_v71 : Ref sig .tc := ⟨.hbm, 104, rfl⟩
abbrev main_v72 : Ref sig .tc := ⟨.hbm, 105, rfl⟩
abbrev main_c_14 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_call2_cst : Ref sig .tc := ⟨.hbm, 125, rfl⟩
abbrev main_call2_v0 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_c_16 : Ref sig .tc := ⟨.hbm, 131, rfl⟩
abbrev main_v92 : Ref sig .tc := ⟨.hbm, 132, rfl⟩
abbrev main_v93 : Ref sig .tc := ⟨.hbm, 133, rfl⟩
abbrev main_c_17 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_18 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_c_19 : Ref sig .tc := ⟨.hbm, 153, rfl⟩
abbrev main_v111 : Ref sig .tc := ⟨.hbm, 154, rfl⟩
abbrev main_v112 : Ref sig .tc := ⟨.hbm, 155, rfl⟩
abbrev main_c_20 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_21 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  bcast_S_S100000 : S_.BroadcastsInDim S100000 (![] : Fin 0 → Fin S100000.rank)
  bcast_S_S200000x64 : S_.BroadcastsInDim S200000x64 (![] : Fin 0 → Fin S200000x64.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x128_S100000x128_0_1 : S1x128.BroadcastsInDim S100000x128 (![0, 1] : Fin 2 → Fin S100000x128.rank)
  bcast_S_S200000x128 : S_.BroadcastsInDim S200000x128 (![] : Fin 0 → Fin S200000x128.rank)
  bcast_S_S100000x128 : S_.BroadcastsInDim S100000x128 (![] : Fin 0 → Fin S100000x128.rank)
  bcast_S200000x1_S200000x128_0_1 : S200000x1.BroadcastsInDim S200000x128 (![0, 1] : Fin 2 → Fin S200000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S1x64_S100000x64_0_1 : S1x64.BroadcastsInDim S100000x64 (![0, 1] : Fin 2 → Fin S100000x64.rank)
  scatter_S200000_S1000000x1_S1000000_n_0_0_1_wf : ScatterDims.WF S200000 S1000000x1 S1000000 [] [0] [0] 1
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1
  dot_S200000x64_S64x128_S200000x128_1_0_0_1_n_n_wf : DotDims.WF S200000x64 S64x128 S200000x128 [1] [0] [0] [1] [] []
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x128_S100000x128_1_0_0_1_n_n_wf : DotDims.WF S100000x64 S64x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S200000x128_S1000000x1_S1000000x128_1_0_0_1_wf : ScatterDims.WF S200000x128 S1000000x1 S1000000x128 [1] [0] [0] 1
  dot_S200000x128_S128x128_S200000x128_1_0_0_1_n_n_wf : DotDims.WF S200000x128 S128x128 S200000x128 [1] [0] [0] [1] [] []
  gather_S200000x128_S1000000x1_S1000000x128_1_0_n_n_0_1_1128_wf : GatherDims.WF S200000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []
  dot_S200000x128_S128x64_S200000x64_1_0_0_1_n_n_wf : DotDims.WF S200000x128 S128x64 S200000x64 [1] [0] [0] [1] [] []
  dot_S100000x128_S128x64_S100000x64_1_0_0_1_n_n_wf : DotDims.WF S100000x128 S128x64 S100000x64 [1] [0] [0] [1] [] []

variable [Facts₀]

def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel program's run with its result named.

  The program is nineteen segments — stretches of host operations and three pallas regions — run one after the
  other from the launch memory. Folding the segments' effects on the buffers from the launch gives the contents
  `W19` at the return; every weakly fair execution terminates, without a fault, with every unscoped buffer at
  those contents. Read at the result buffer this names the program's result, `W19 m ρ c main_v129`; read at the
  argument buffers it says they end as launched.
-/
import proofs.«181482_j36249523978328_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the folded
    contents `W19` and the argument arrays as launched: the segments' launch theorem, the last thread state read
    against the final state. -/
theorem run : θ_run defs (onTc (τ := τ) (main (F := F))) ⟨m, fun _ => 0, ρ⟩ (fun r => ∀ c : Dev nD,
      r.2.mem ((c.tc : Thread nD τ).loc main_v129) = W19 m ρ c (Proc.devRef .tc main_v129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v129 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c)⟩)

end Cert.KernelIdeal.KRun

end
-- ==== Proof.Spec.lean ====
/-
  The mathematics of one mean-aggregating graph layer, entry by entry on the extended reals.

  A layer takes, for a set of nodes, the nodes' own features `h` and their neighbourhood means `a` (both N × D),
  two weight matrices `Ws`, `Wn` (D × O) and a bias `b` (O), and gives at node `p`, output feature `j`
      (Σ_k h(p,k)·Ws(k,j) + b(j)) + Σ_k a(p,k)·Wn(k,j)                                   (`layerAt`).
  The same number is one product over the doubled axis: with X = [h | a] (N × 2D) and W = [Ws ; Wn] (2D × O),
      Σ_{k < 2D} X(r,k)·W(k,j) + b(j)                                                    (`affine`),
  because a sum over 2D positions is the sum of its two halves and addition of extended reals is commutative and
  associative (`affine_cat`). No distributivity is used, so nothing here needs the entries to be finite.
-/
import Idealize.ShloMosaic.PureOps.Ideal
import Idealize.ShloMosaic.Lib.ValueIdx

noncomputable section

namespace Cert.Sage

open Idealize.ShloMosaic Idealize.ShloMosaic.ValueIdx

/-- A matrix product with a one-row bias: entry (r, j) is Σ_k X(r,k)·W(k,j) + B(0,j). -/
def affine {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => (∑ k : Fin K, X (ix2 (i 0) k) * W (ix2 k (i 1))) + B (ix2 (0 : Fin 1) (i 1))

theorem affine_apply {M K N : ℕ} (X : (⟨2, ![M, K]⟩ : Shape).Idx → EReal) (W : (⟨2, ![K, N]⟩ : Shape).Idx → EReal)
    (B : (⟨2, ![1, N]⟩ : Shape).Idx → EReal) (r : Fin M) (j : Fin N) :
    affine X W B (ix2 r j) = (∑ k : Fin K, X (ix2 r k) * W (ix2 k j)) + B (ix2 (0 : Fin 1) j) := rfl

/-- One layer at node `p`, output feature `j`: the node's own features through `Ws`, plus the bias, plus the
    neighbourhood mean through `Wn`. -/
def layerAt {N D O : ℕ} (h a : (⟨2, ![N, D]⟩ : Shape).Idx → EReal) (Ws Wn : (⟨2, ![D, O]⟩ : Shape).Idx → EReal)
    (b : (⟨1, ![O]⟩ : Shape).Idx → EReal) (p : Fin N) (j : Fin O) : EReal :=
  ((∑ k : Fin D, h (ix2 p k) * Ws (ix2 k j)) + b (ix1 j)) + ∑ k : Fin D, a (ix2 p k) * Wn (ix2 k j)

/-- A sum over K = D + D positions is the sum over the first D plus the sum over the last D. -/
theorem sum_two_halves {D K : ℕ} (hK : K = D + D) (f : Fin K → EReal) :
    ∑ k : Fin K, f k = (∑ k : Fin D, f ⟨k.val, by omega⟩) + ∑ k : Fin D, f ⟨D + k.val, by omega⟩ := by
  subst hK
  rw [Fin.sum_univ_add]
  rfl

/-- The product over the doubled axis is the layer: if row `r` of `X` is row `p` of `h` followed by row `p` of `a`,
    column `j` of `W` is column `j` of `Ws` above column `j` of `Wn`, and the bias row holds `b`, then entry (r, j) of
    `affine X W B` is `layerAt h a Ws Wn b p j`. -/
theorem affine_cat {M K O Nn D : ℕ} (hK : K = D + D)
    (X : (⟨2, ![M, K]⟩ : Shape).Idx → EReal) (W : (⟨2, ![K, O]⟩ : Shape).Idx → EReal) (B : (⟨2, ![1, O]⟩ : Shape).Idx → EReal)
    (h a : (⟨2, ![Nn, D]⟩ : Shape).Idx → EReal) (Ws Wn : (⟨2, ![D, O]⟩ : Shape).Idx → EReal) (b : (⟨1, ![O]⟩ : Shape).Idx → EReal)
    (r : Fin M) (p : Fin Nn) (j : Fin O)
    (hXl : ∀ k : Fin D, X (ix2 r (⟨k.val, by omega⟩ : Fin K)) = h (ix2 p k))
    (hXr : ∀ k : Fin D, X (ix2 r (⟨D + k.val, by omega⟩ : Fin K)) = a (ix2 p k))
    (hWl : ∀ k : Fin D, W (ix2 (⟨k.val, by omega⟩ : Fin K) j) = Ws (ix2 k j))
    (hWr : ∀ k : Fin D, W (ix2 (⟨D + k.val, by omega⟩ : Fin K) j) = Wn (ix2 k j))
    (hB : B (ix2 (0 : Fin 1) j) = b (ix1 j)) :
    affine X W B (ix2 r j) = layerAt h a Ws Wn b p j := by
  rw [affine_apply, sum_two_halves hK]
  simp only [hXl, hXr, hWl, hWr, hB]
  unfold layerAt
  exact add_right_comm _ _ _

end Cert.Sage

end
-- ==== Proof.KStages.lean ====
/-
  The kernel program's host-side stages at the ideal reading, as pure functions of arrays.

  Around each of its three dense products the program prepares, on the host, the product's operands:
  * the node degrees, clamped below at one (`degU`, `degI`: a scatter-add of ones along the edge list);
  * the neighbourhood means (`aggU*`, `aggI*`: rows gathered along one end of every edge, scatter-added at the
    other end, divided by the degree);
  * the left operand (`xin0`, `xin1`): each node's own features beside its neighbourhood mean, the user nodes above
    the item nodes, cast to the narrow format (the identity here) and padded with 3104 further rows;
  * the right operand (`wcat*`): the self weights above the neighbour weights; the bias as one row (`brow*`);
  and after each product it cuts the padding off and splits users from items (`sliceU*`, `sliceI*`), rectifying
  the hidden layers (`reluU`, `reluI`). `kernelValue` composes the three layers; the three products themselves
  are `Cert.Sage.affine`.
-/
import proofs.«181482_j36249523978328_1_alg».proof.KernelIdeal
import proofs.«181482_j36249523978328_1_alg».proof.Proof.Gen.KernelIdeal
import proofs.«181482_j36249523978328_1_alg».proof.Proof.Spec

noncomputable section

namespace Cert.KernelIdeal.KV

open Cert.KernelIdeal Cert.KernelIdeal.Facts₀ Cert.KernelIdeal.Facts Idealize.ShloMosaic

/-- An array of a printed buffer type at the ideal reading. -/
abbrev Arr (T : BufTy) := T.Contents (Elt Ideal)

def zeroS : FVec Ideal S_ .f32 := constant (F := Ideal) S_ .f32 0x00000000#32
def oneS : FVec Ideal S_ .f32 := constant (F := Ideal) S_ .f32 0x3F800000#32

/-- An edge-index vector as a one-column matrix. -/
def col (e : IVec S1000000 32) : IVec S1000000x1 32 := broadcastInDim S1000000x1 ![0] bcast_S1000000_S1000000x1_0 e

/-- Negative indices count from the end: `e + n` where `e < 0`. -/
def wrapU (e : IVec S1000000 32) : IVec S1000000 32 :=
  select (cmpi .slt e (broadcastInDim S1000000 ![] bcast_S_S1000000 (constantI S_ 32 0#32)))
    (addi e (broadcastInDim S1000000 ![] bcast_S_S1000000 (constantI S_ 32 200000#32))) e
def wrapI (e : IVec S1000000 32) : IVec S1000000 32 :=
  select (cmpi .slt e (broadcastInDim S1000000 ![] bcast_S_S1000000 (constantI S_ 32 0#32)))
    (addi e (broadcastInDim S1000000 ![] bcast_S_S1000000 (constantI S_ 32 100000#32))) e

/-- The number of edges at each user node, at least one. -/
def degU (e2 : IVec S1000000 32) : FVec Ideal S200000 .f32 :=
  maximumf (Host.scatterAdd scatter_S200000_S1000000x1_S1000000_n_0_0_1 (broadcastInDim S200000 ![] bcast_S_S200000 zeroS) (col e2)
      (broadcastInDim S1000000 ![] bcast_S_S1000000 oneS))
    (broadcastInDim S200000 ![] bcast_S_S200000 oneS)
/-- The number of edges at each item node, at least one. -/
def degI (e3 : IVec S1000000 32) : FVec Ideal S100000 .f32 :=
  maximumf (Host.scatterAdd scatter_S100000_S1000000x1_S1000000_n_0_0_1 (broadcastInDim S100000 ![] bcast_S_S100000 zeroS) (col e3)
      (broadcastInDim S1000000 ![] bcast_S_S1000000 oneS))
    (broadcastInDim S100000 ![] bcast_S_S100000 oneS)

/-- Mean of the item rows over each user's edges (64 features). -/
def aggU64 (hI : FVec Ideal S100000x64 .f32) (dU : FVec Ideal S200000 .f32) (e2 e3 : IVec S1000000 32) : FVec Ideal S200000x64 .f32 :=
  Host.divf (Host.scatterAdd scatter_S200000x64_S1000000x1_S1000000x64_1_0_0_1 (broadcastInDim S200000x64 ![] bcast_S_S200000x64 zeroS) (col e2)
      (Host.gather gather_S100000x64_S1000000x1_S1000000x64_1_0_n_n_0_1_164 hI (col (wrapI e3))))
    (broadcastInDim S200000x64 ![0, 1] bcast_S200000x1_S200000x64_0_1 (broadcastInDim S200000x1 ![0] bcast_S200000_S200000x1_0 dU))
/-- Mean of the user rows over each item's edges (64 features). -/
def aggI64 (hU : FVec Ideal S200000x64 .f32) (dI : FVec Ideal S100000 .f32) (e2 e3 : IVec S1000000 32) : FVec Ideal S100000x64 .f32 :=
  Host.divf (Host.scatterAdd scatter_S100000x64_S1000000x1_S1000000x64_1_0_0_1 (broadcastInDim S100000x64 ![] bcast_S_S100000x64 zeroS) (col e3)
      (Host.gather gather_S200000x64_S1000000x1_S1000000x64_1_0_n_n_0_1_164 hU (col (wrapU e2))))
    (broadcastInDim S100000x64 ![0, 1] bcast_S100000x1_S100000x64_0_1 (broadcastInDim S100000x1 ![0] bcast_S100000_S100000x1_0 dI))
/-- Mean of the item rows over each user's edges (128 features). -/
def aggU128 (hI : FVec Ideal S100000x128 .f32) (dU : FVec Ideal S200000 .f32) (e2 e3 : IVec S1000000 32) : FVec Ideal S200000x128 .f32 :=
  Host.divf (Host.scatterAdd scatter_S200000x128_S1000000x1_S1000000x128_1_0_0_1 (broadcastInDim S200000x128 ![] bcast_S_S200000x128 zeroS) (col e2)
      (Host.gather gather_S100000x128_S1000000x1_S1000000x128_1_0_n_n_0_1_1128 hI (col (wrapI e3))))
    (broadcastInDim S200000x128 ![0, 1] bcast_S200000x1_S200000x128_0_1 (broadcastInDim S200000x1 ![0] bcast_S200000_S200000x1_0 dU))
/-- Mean of the user rows over each item's edges (128 features). -/
def aggI128 (hU : FVec Ideal S200000x128 .f32) (dI : FVec Ideal S100000 .f32) (e2 e3 : IVec S1000000 32) : FVec Ideal S100000x128 .f32 :=
  Host.divf (Host.scatterAdd scatter_S100000x128_S1000000x1_S1000000x128_1_0_0_1 (broadcastInDim S100000x128 ![] bcast_S_S100000x128 zeroS) (col e3)
      (Host.gather gather_S200000x128_S1000000x1_S1000000x128_1_0_n_n_0_1_1128 hU (col (wrapU e2))))
    (broadcastInDim S100000x128 ![0, 1] bcast_S100000x1_S100000x128_0_1 (broadcastInDim S100000x1 ![0] bcast_S100000_S100000x1_0 dI))

/-- The padding value: the integer zero converted. -/
def padV : FVec Ideal S_ .bf16 := sitofp .bf16 (constantI S_ 32 0#32 : IVec S_ 32)

/-- First layer's left operand: [hU | aU] above [hI | aI], 64 + 64 columns, padded to 303104 rows. -/
def xin0 (hU aU : FVec Ideal S200000x64 .f32) (hI aI : FVec Ideal S100000x64 .f32) : FVec Ideal S303104x128 .bf16 :=
  pad S303104x128 ![0, 0] ![3104, 0] ![0, 0]
    (truncf .bf16 (concatenate S300000x128 0
      [⟨S200000x128, concatenate S200000x128 1 [⟨S200000x64, hU⟩, ⟨S200000x64, aU⟩] concatenates_S200000x64_S200000x64_S200000x128_d1⟩,
       ⟨S100000x128, concatenate S100000x128 1 [⟨S100000x64, hI⟩, ⟨S100000x64, aI⟩] concatenates_S100000x64_S100000x64_S100000x128_d1⟩]
      concatenates_S200000x128_S100000x128_S300000x128_d0) bitsLt_bf16_f32)
    padV pads_S300000x128_S303104x128_031040_000 h_S_
/-- Later layers' left operand: [hU | aU] above [hI | aI], 128 + 128 columns, padded to 303104 rows. -/
def xin1 (hU aU : FVec Ideal S200000x128 .f32) (hI aI : FVec Ideal S100000x128 .f32) : FVec Ideal S303104x256 .bf16 :=
  pad S303104x256 ![0, 0] ![3104, 0] ![0, 0]
    (truncf .bf16 (concatenate S300000x256 0
      [⟨S200000x256, concatenate S200000x256 1 [⟨S200000x128, hU⟩, ⟨S200000x128, aU⟩] concatenates_S200000x128_S200000x128_S200000x256_d1⟩,
       ⟨S100000x256, concatenate S100000x256 1 [⟨S100000x128, hI⟩, ⟨S100000x128, aI⟩] concatenates_S100000x128_S100000x128_S100000x256_d1⟩]
      concatenates_S200000x256_S100000x256_S300000x256_d0) bitsLt_bf16_f32)
    padV pads_S300000x256_S303104x256_031040_000 h_S_

/-- The self weights above the neighbour weights. -/
def wcat0 (Ws Wn : FVec Ideal S64x128 .f32) : FVec Ideal S128x128 .bf16 :=
  truncf .bf16 (concatenate S128x128 0 [⟨S64x128, Ws⟩, ⟨S64x128, Wn⟩] concatenates_S64x128_S64x128_S128x128_d0) bitsLt_bf16_f32
def wcat1 (Ws Wn : FVec Ideal S128x128 .f32) : FVec Ideal S256x128 .bf16 :=
  truncf .bf16 (concatenate S256x128 0 [⟨S128x128, Ws⟩, ⟨S128x128, Wn⟩] concatenates_S128x128_S128x128_S256x128_d0) bitsLt_bf16_f32
def wcat2 (Ws Wn : FVec Ideal S128x64 .f32) : FVec Ideal S256x64 .bf16 :=
  truncf .bf16 (concatenate S256x64 0 [⟨S128x64, Ws⟩, ⟨S128x64, Wn⟩] concatenates_S128x64_S128x64_S256x64_d0) bitsLt_bf16_f32

/-- The bias as a one-row matrix. -/
def brow128 (b : FVec Ideal S128 .f32) : FVec Ideal S1x128 .f32 := fun i => shapeCast S1x128 b shapeCasts_S128_S1x128 i
def brow64 (b : FVec Ideal S64 .f32) : FVec Ideal S1x64 .f32 := fun i => shapeCast S1x64 b shapeCasts_S64_S1x64 i

/-- The user rows / the item rows of a padded 128-column result. -/
def sliceU128 (R : FVec Ideal S303104x128 .f32) : FVec Ideal S200000x128 .f32 :=
  extractStridedSlice S200000x128 ![0, 0] (extractStridedSlice S300000x128 ![0, 0] R slices_S303104x128_S300000x128_0_0) slices_S300000x128_S200000x128_0_0
def sliceI128 (R : FVec Ideal S303104x128 .f32) : FVec Ideal S100000x128 .f32 :=
  extractStridedSlice S100000x128 ![200000, 0] (extractStridedSlice S300000x128 ![0, 0] R slices_S303104x128_S300000x128_0_0) slices_S300000x128_S100000x128_200000_0
/-- The item rows of the padded 64-column result. -/
def sliceI64 (R : FVec Ideal S303104x64 .f32) : FVec Ideal S100000x64 .f32 :=
  extractStridedSlice S100000x64 ![200000, 0] (extractStridedSlice S300000x64 ![0, 0] R slices_S303104x64_S300000x64_0_0) slices_S300000x64_S100000x64_200000_0

/-- max(·, 0), entry by entry. -/
def reluU (h : FVec Ideal S200000x128 .f32) : FVec Ideal S200000x128 .f32 := maximumf h (broadcastInDim S200000x128 ![] bcast_S_S200000x128 zeroS)
def reluI (h : FVec Ideal S100000x128 .f32) : FVec Ideal S100000x128 .f32 := maximumf h (broadcastInDim S100000x128 ![] bcast_S_S100000x128 zeroS)

/-- The first dense product's padded result. -/
def R0 (x0 : FVec Ideal S200000x64 .f32) (x1 : FVec Ideal S100000x64 .f32) (e2 e3 : IVec S1000000 32) (x4 x5 : FVec Ideal S64x128 .f32) (x6 : FVec Ideal S128 .f32) :
    FVec Ideal S303104x128 .f32 :=
  Cert.Sage.affine (xin0 x0 (aggU64 x1 (degU e2) e2 e3) x1 (aggI64 x0 (degI e3) e2 e3)) (wcat0 x5 x4) (brow128 x6)

/-- A later dense product's padded result from the previous one's. -/
def R1 (R : FVec Ideal S303104x128 .f32) (e2 e3 : IVec S1000000 32) (x7 x8 : FVec Ideal S128x128 .f32) (x9 : FVec Ideal S128 .f32) : FVec Ideal S303104x128 .f32 :=
  Cert.Sage.affine (xin1 (reluU (sliceU128 R)) (aggU128 (reluI (sliceI128 R)) (degU e2) e2 e3) (reluI (sliceI128 R)) (aggI128 (reluU (sliceU128 R)) (degI e3) e2 e3))
    (wcat1 x8 x7) (brow128 x9)
def R2 (R : FVec Ideal S303104x128 .f32) (e2 e3 : IVec S1000000 32) (x10 x11 : FVec Ideal S128x64 .f32) (x12 : FVec Ideal S64 .f32) : FVec Ideal S303104x64 .f32 :=
  Cert.Sage.affine (xin1 (reluU (sliceU128 R)) (aggU128 (reluI (sliceI128 R)) (degU e2) e2 e3) (reluI (sliceI128 R)) (aggI128 (reluU (sliceU128 R)) (degI e3) e2 e3))
    (wcat2 x11 x10) (brow64 x12)

/-- What the kernel program returns: the item rows of the third layer. -/
def kernelValue (x0 : FVec Ideal S200000x64 .f32) (x1 : FVec Ideal S100000x64 .f32) (e2 e3 : IVec S1000000 32) (x4 x5 : FVec Ideal S64x128 .f32) (x6 : FVec Ideal S128 .f32)
    (x7 x8 : FVec Ideal S128x128 .f32) (x9 : FVec Ideal S128 .f32) (x10 x11 : FVec Ideal S128x64 .f32) (x12 : FVec Ideal S64 .f32) : FVec Ideal S100000x64 .f32 :=
  sliceI64 (R2 (R1 (R0 x0 x1 e2 e3 x4 x5 x6) e2 e3 x7 x8 x9) e2 e3 x10 x11 x12)

end Cert.KernelIdeal.KV

end
-- ==== Proof.HostVals.lean ====
/-
  What the kernel program's host stretches leave in the buffers the three dense products read.

  Between the launch and the first product, between two products, and after the last one, the program runs
  straight lines of host operations. Each line's effect on one buffer is a computation: the composition of the
  operations that feed it, applied to what the line found in the buffers it reads. Stated for ANY contents `W` at
  the line's start, so that the lines compose: the first product's three operands (`xin0`, `wcat0`, `brow128` of
  the arguments), the later products' operands from the previous product's result, the degrees and the edge lists
  (kept from the first line on), and the program's result as the item rows of the last product.
-/
import proofs.«181482_j36249523978328_1_alg».proof.Proof.Gen.KernelIdeal.Launch
import proofs.«181482_j36249523978328_1_alg».proof.Proof.KStages
import Idealize.ShloMosaic.Lib.StableHlo.Run

set_option maxRecDepth 16384
set_option maxHeartbeats 4000000

noncomputable section

namespace Cert.KernelIdeal.KV

open Cert.KernelIdeal Cert.KernelIdeal.Gen Cert.KernelIdeal.Facts₀ Cert.KernelIdeal.Facts
open Idealize.ShloMosaic Idealize.ShloMosaic.TcCoe Idealize.SL.Sem Idealize.ShloMosaic.StableHlo

variable (W : Valuation τ sig (Elt Ideal))

/-- The buffers after the three lines before the first product. -/
abbrev after0 : Valuation τ sig (Elt Ideal) := after hostOps0_2 (after hostOps0_1 (after hostOps0 W))
/-- The buffers after the six lines between the first product and the second. -/
abbrev after1 : Valuation τ sig (Elt Ideal) :=
  after hostOps1_5 (after hostOps1_4 (after hostOps1_3 (after hostOps1_2 (after hostOps1_1 (after hostOps1 W)))))
/-- The buffers after the six lines between the second product and the third. -/
abbrev after2 : Valuation τ sig (Elt Ideal) :=
  after hostOps2_5 (after hostOps2_4 (after hostOps2_3 (after hostOps2_2 (after hostOps2_1 (after hostOps2 W)))))

/-- Two pieces joined along an axis, with the pieces as separate arguments (so that each can be rewritten on its own). -/
def join2 {α : Type} (t : Shape) (a : Fin t.rank) (S₁ S₂ : Shape) (h : Shape.Concatenates [S₁, S₂] t a)
    (x₁ : S₁.Idx → α) (x₂ : S₂.Idx → α) : t.Idx → α :=
  concatenate t a [⟨S₁, x₁⟩, ⟨S₂, x₂⟩] h
theorem concatenate_eq_join2 {α : Type} (t : Shape) (a : Fin t.rank) (S₁ S₂ : Shape) (h : Shape.Concatenates [S₁, S₂] t a)
    (x₁ : S₁.Idx → α) (x₂ : S₂.Idx → α) : concatenate t a [⟨S₁, x₁⟩, ⟨S₂, x₂⟩] h = join2 t a S₁ S₂ h x₁ x₂ := rfl

/-- The host lines' results in one pass, looking inside two-piece concatenations as well. -/
macro "host_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_eq_join2]))

/-! ## Before the first product -/

/-- The left operand: own features beside neighbourhood means, users above items, padded. -/
theorem a0_v43 : after0 W (Proc.devRef .tc main_v43)
    = xin0 (W (Proc.devRef .tc main_arg0)) (aggU64 (W (Proc.devRef .tc main_arg1)) (degU (W (Proc.devRef .tc main_arg2))) (W (Proc.devRef .tc main_arg2)) (W (Proc.devRef .tc main_arg3)))
        (W (Proc.devRef .tc main_arg1)) (aggI64 (W (Proc.devRef .tc main_arg0)) (degI (W (Proc.devRef .tc main_arg3))) (W (Proc.devRef .tc main_arg2)) (W (Proc.devRef .tc main_arg3))) := by
  host_results
  rfl
theorem a0_v44 : after0 W (Proc.devRef .tc main_v44) = wcat0 (W (Proc.devRef .tc main_arg5)) (W (Proc.devRef .tc main_arg4)) := by
  host_results
  rfl
theorem a0_v45 : after0 W (Proc.devRef .tc main_v45) = brow128 (W (Proc.devRef .tc main_arg6)) := by
  host_results
  rfl
theorem a0_v5 : after0 W (Proc.devRef .tc main_v5) = degU (W (Proc.devRef .tc main_arg2)) := by
  host_results
  rfl
theorem a0_v11 : after0 W (Proc.devRef .tc main_v11) = degI (W (Proc.devRef .tc main_arg3)) := by
  host_results
  rfl
theorem a0_keep_arg2 : after0 W (Proc.devRef .tc main_arg2) = W (Proc.devRef .tc main_arg2) := by
  host_results
theorem a0_keep_arg3 : after0 W (Proc.devRef .tc main_arg3) = W (Proc.devRef .tc main_arg3) := by
  host_results
theorem a0_keep_arg7 : after0 W (Proc.devRef .tc main_arg7) = W (Proc.devRef .tc main_arg7) := by
  host_results
theorem a0_keep_arg8 : after0 W (Proc.devRef .tc main_arg8) = W (Proc.devRef .tc main_arg8) := by
  host_results
theorem a0_keep_arg9 : after0 W (Proc.devRef .tc main_arg9) = W (Proc.devRef .tc main_arg9) := by
  host_results
theorem a0_keep_arg10 : after0 W (Proc.devRef .tc main_arg10) = W (Proc.devRef .tc main_arg10) := by
  host_results
theorem a0_keep_arg11 : after0 W (Proc.devRef .tc main_arg11) = W (Proc.devRef .tc main_arg11) := by
  host_results
theorem a0_keep_arg12 : after0 W (Proc.devRef .tc main_arg12) = W (Proc.devRef .tc main_arg12) := by
  host_results

/-! ## Between the first product and the second -/

theorem a1_v83 : after1 W (Proc.devRef .tc main_v83)
    = xin1 (reluU (sliceU128 (W (Proc.devRef .tc main_v46))))
        (aggU128 (reluI (sliceI128 (W (Proc.devRef .tc main_v46)))) (W (Proc.devRef .tc main_v5)) (W (Proc.devRef .tc main_arg2)) (W (Proc.devRef .tc main_arg3)))
        (reluI (sliceI128 (W (Proc.devRef .tc main_v46))))
        (aggI128 (reluU (sliceU128 (W (Proc.devRef .tc main_v46)))) (W (Proc.devRef .tc main_v11)) (W (Proc.devRef .tc main_arg2)) (W (Proc.devRef .tc main_arg3))) := by
  host_results
  rfl
theorem a1_v84 : after1 W (Proc.devRef .tc main_v84) = wcat1 (W (Proc.devRef .tc main_arg8)) (W (Proc.devRef .tc main_arg7)) := by
  host_results
  rfl
theorem a1_v85 : after1 W (Proc.devRef .tc main_v85) = brow128 (W (Proc.devRef .tc main_arg9)) := by
  host_results
  rfl
theorem a1_keep_v5 : after1 W (Proc.devRef .tc main_v5) = W (Proc.devRef .tc main_v5) := by
  host_results
theorem a1_keep_v11 : after1 W (Proc.devRef .tc main_v11) = W (Proc.devRef .tc main_v11) := by
  host_results
theorem a1_keep_arg2 : after1 W (Proc.devRef .tc main_arg2) = W (Proc.devRef .tc main_arg2) := by
  host_results
theorem a1_keep_arg3 : after1 W (Proc.devRef .tc main_arg3) = W (Proc.devRef .tc main_arg3) := by
  host_results
theorem a1_keep_arg10 : after1 W (Proc.devRef .tc main_arg10) = W (Proc.devRef .tc main_arg10) := by
  host_results
theorem a1_keep_arg11 : after1 W (Proc.devRef .tc main_arg11) = W (Proc.devRef .tc main_arg11) := by
  host_results
theorem a1_keep_arg12 : after1 W (Proc.devRef .tc main_arg12) = W (Proc.devRef .tc main_arg12) := by
  host_results

/-! ## Between the second product and the third -/

theorem a2_v123 : after2 W (Proc.devRef .tc main_v123)
    = xin1 (reluU (sliceU128 (W (Proc.devRef .tc main_v86))))
        (aggU128 (reluI (sliceI128 (W (Proc.devRef .tc main_v86)))) (W (Proc.devRef .tc main_v5)) (W (Proc.devRef .tc main_arg2)) (W (Proc.devRef .tc main_arg3)))
        (reluI (sliceI128 (W (Proc.devRef .tc main_v86))))
        (aggI128 (reluU (sliceU128 (W (Proc.devRef .tc main_v86)))) (W (Proc.devRef .tc main_v11)) (W (Proc.devRef .tc main_arg2)) (W (Proc.devRef .tc main_arg3))) := by
  host_results
  rfl
theorem a2_v124 : after2 W (Proc.devRef .tc main_v124) = wcat2 (W (Proc.devRef .tc main_arg11)) (W (Proc.devRef .tc main_arg10)) := by
  host_results
  rfl
theorem a2_v125 : after2 W (Proc.devRef .tc main_v125) = brow64 (W (Proc.devRef .tc main_arg12)) := by
  host_results
  rfl

/-! ## After the third product -/

/-- The program's result: the item rows of the last product. -/
theorem a3_v129 : after hostOps3 W (Proc.devRef .tc main_v129) = sliceI64 (W (Proc.devRef .tc main_v126)) := by
  host_results
  rfl

end Cert.KernelIdeal.KV

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«181482_j36249523978328_1_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.Region0.lean ====
/-
  The first dense product of the kernel program, as one function of whole arrays.

  The region walks 74 blocks of 4096 rows. At each block it multiplies the block's rows of the left operand
  (4096 × 128) by the whole right operand (128 × 128) into a zero accumulator and adds the one-row bias to every
  row. Entry (p, j) of a block's result is therefore Σ_k x(p,k)·w(k,j) + b(0,j) with x the block's rows; block t
  holds rows 4096·t … 4096·t + 4095 of the left operand and of the output, the 74 blocks tile the 303104 rows, and
  so the output array ends holding Σ_k X(r,k)·W(k,j) + B(0,j) at every (r, j): `Cert.Sage.affine` of the three
  input arrays as the region finds them.
-/
import proofs.«181482_j36249523978328_1_alg».proof.Proof.Gen.KernelIdeal.Frame
import proofs.«181482_j36249523978328_1_alg».proof.Proof.Spec
import proofs.«181482_j36249523978328_1_alg».proof.Proof.LibPlainDot
import Idealize.ShloMosaic.Lib.Pipeline.Value
import Idealize.ShloMosaic.Lib.ValueLayout

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

/-- The two zero offsets, as the constant function. -/
theorem zeroOffsets0 : (![0, 0] : Fin 2 → Nat) = fun _ => 0 := funext fun a => by fin_cases a <;> rfl

/-- The product's dimension numbers are those of rows times columns: the left operand is contracted on its
    second axis, the right on its first. -/
theorem plainDot0 : Cert.LibHostRead.PlainDot dot_S4096x128_S128x128_S4096x128_1_0_0_1_n_n :=
  Cert.LibPlainDot.plainDot_plain 4096 128 128

/-- One block's result at (p, j): the block's row p times column j of the weights, plus the bias at j. -/
theorem blockValue0 (x0 : Vec Ideal S4096x128 .bf16) (x1 : Vec Ideal S128x128 .bf16) (x2 : Vec Ideal S1x128 .f32)
    (p : Fin 4096) (j : Fin 128) :
    k0_pay1 (F := Ideal) x0 x1 x2 (ix2 p j) = (∑ k : Fin 128, x0 (ix2 p k) * x1 (ix2 k j)) + x2 (ix2 (0 : Fin 1) j) := by
  unfold k0_pay1
  rw [addf_apply, shapeCast_self, shapeCast_self, shapeCast_self]
  refine congrArg₂ (· + ·) ?_ ?_
  · exact Cert.LibPlainDot.vmatmul_apply _ plainDot0 x0 x1 p j
  · exact broadcastTo_1b_ab_apply x2 _ p j

/-- A block's result is the block of the whole product: if the block's left operand is rows 4096·T … of `X`,
    its right operand is `W` and its bias row is `B`, then its entry at `y` is the whole product's entry at the
    index `i` that lies 4096·T rows below `y`. -/
theorem blockValue0_affine (X : S303104x128.Idx → EReal) (W : S128x128.Idx → EReal) (B : S1x128.Idx → EReal) (T : ℕ)
    (x0 : Vec Ideal S4096x128 .bf16) (x1 : Vec Ideal S128x128 .bf16) (x2 : Vec Ideal S1x128 .f32)
    (h0 : ∀ (p : Fin 4096) (r : Fin 303104) (k : Fin 128), r.val = T * 4096 + p.val → x0 (ix2 p k) = X (ix2 r k))
    (h1 : ∀ (k : Fin 128) (j : Fin 128), x1 (ix2 k j) = W (ix2 k j))
    (h2 : ∀ j : Fin 128, x2 (ix2 (0 : Fin 1) j) = B (ix2 (0 : Fin 1) j))
    (y : S4096x128.Idx) (i : S303104x128.Idx) (hi0 : (i 0).val = T * 4096 + (y 0).val) (hi1 : (i 1).val = (y 1).val) :
    k0_pay1 (F := Ideal) x0 x1 x2 y = Cert.Sage.affine (M := 303104) (K := 128) (N := 128) X W B i := by
  obtain ⟨p, j, rfl⟩ : ∃ (p : Fin 4096) (j : Fin 128), y = ix2 p j := ⟨y 0, y 1, eq_ix2 y⟩
  obtain ⟨r, j', rfl⟩ : ∃ (r : Fin 303104) (j' : Fin 128), i = ix2 r j' := ⟨i 0, i 1, eq_ix2 i⟩
  obtain rfl : j' = j := Fin.ext hi1
  rw [blockValue0, Cert.Sage.affine_apply, h2]
  refine congrArg (· + B (ix2 (0 : Fin 1) j')) (Finset.sum_congr rfl fun k _ => ?_)
  rw [h0 p r k hi0, h1]

/-- The printed index maps, decided over the 74 points: the left operand's and the output's blocks are at row
    block `t`, column block 0; the weights and the bias are always at block (0, 0). -/
theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product of the arrays the region finds. -/
theorem flushed0 (c : Dev nD) (t : Fin cfg0.N) :
    (dat0 (F := Ideal) V c).flushed 3 t = ((cfg0.win 3).blk t).view.read (Elt Ideal)
      (Cert.Sage.affine (M := 303104) (K := 128) (N := 128) (V c main_v43) (V c main_v44) (V c main_v45)) := by
  show (cfg0.win 3).cut (grid0.coords t) ((dat0 V c).after 3 t) = _
  rw [after0_3]
  unfold out0_3
  rw [View.canon_unit_zero zeroOffsets0]
  simp only [View.ld_unit_zero (S := S4096x128) zeroOffsets0, View.ld_unit_zero (S := S128x128) zeroOffsets0,
    View.ld_unit_zero (S := S1x128) zeroOffsets0]
  obtain ⟨e00, e01, e10, e11, e20, e21, e30, e31⟩ := blockIndices0 t
  funext y
  refine blockValue0_affine (V c main_v43) (V c main_v44) (V c main_v45) t.val
    (iblk0 V c 0 t) (iblk0 V c 1 t) (iblk0 V c 2 t) ?_ ?_ ?_ ((cfg0.win 3).xinj (grid0.coords t) y)
    (((cfg0.win 3).blk t).view.emb y) ?_ ?_
  · intro p r k hr
    show V c main_v43 (((cfg0.win 0).blk t).view.emb (ix2 p k)) = V c main_v43 (ix2 r k)
    refine congrArg (V c main_v43) (funext fun a => Fin.ext ?_)
    match a with
    | ⟨0, _⟩ => show win0_0.index t (0 : Fin 2) * 4096 + 1 * p.val = r.val; omega
    | ⟨1, _⟩ => show win0_0.index t (1 : Fin 2) * 128 + 1 * k.val = k.val; omega
  · intro k j
    show V c main_v44 (((cfg0.win 1).blk t).view.emb (ix2 k j)) = V c main_v44 (ix2 k j)
    refine congrArg (V c main_v44) (funext fun a => Fin.ext ?_)
    match a with
    | ⟨0, _⟩ => show win0_1.index t (0 : Fin 2) * 128 + 1 * k.val = k.val; omega
    | ⟨1, _⟩ => show win0_1.index t (1 : Fin 2) * 128 + 1 * j.val = j.val; omega
  · intro j
    show V c main_v45 (((cfg0.win 2).blk t).view.emb (ix2 (0 : Fin 1) j)) = V c main_v45 (ix2 (0 : Fin 1) j)
    refine congrArg (V c main_v45) (funext fun a => Fin.ext ?_)
    match a with
    | ⟨0, _⟩ => show win0_2.index t (0 : Fin 2) * 1 + 1 * 0 = 0; omega
    | ⟨1, _⟩ => show win0_2.index t (1 : Fin 2) * 128 + 1 * j.val = j.val; omega
  · show win0_3.index t (0 : Fin 2) * 4096 + 1 * (y 0).val = t.val * 4096 + (y 0).val; omega
  · show win0_3.index t (1 : Fin 2) * 128 + 1 * (y 1).val = (y 1).val; omega

/-- An index of the output array is in point `t`'s block iff each coordinate is in the block's range on its axis. -/
theorem mem_block0 (t : Fin cfg0.N) (i : S303104x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v46).slice (win0_3.rect t)).set ↔ _
  rw [View.set_slice_whole, Rect.mem_set_unit]
  exact Iff.rfl

/-- Every index of the output array lies in the block of the point its row's quotient by 4096 names. -/
theorem covered0 (i : S303104x128.Idx) :
    ∃ t : Fin cfg0.N, (cfg0.win 3).flush t = true ∧ i ∈ ((cfg0.win 3).blk t).view.set := by
  have hi0 : (i 0).val < 303104 := (i 0).isLt
  have hi1 : (i 1).val < 128 := (i 1).isLt
  have hN : grid0.N = 74 := N_0
  let t : Fin cfg0.N := ⟨(i 0).val / 4096, by show (i 0).val / 4096 < grid0.N; omega⟩
  obtain ⟨-, -, -, -, -, -, e30, e31⟩ := blockIndices0 t
  have ht : t.val = (i 0).val / 4096 := rfl
  refine ⟨t, flush0_3 t, ?_⟩
  rw [mem_block0]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 128 ≤ (i 1).val ∧ (i 1).val < win0_3.index t (1 : Fin 2) * 128 + 128
    omega

/-- The output array after the region: the whole product of the three input arrays as the region finds them. -/
theorem region0 (c : Dev nD) :
    (dat0 (F := Ideal) V c).arrAt 3 cfg0.N
      = Cert.Sage.affine (M := 303104) (K := 128) (N := 128) (V c main_v43) (V c main_v44) (V c main_v45) :=
  (dat0 (F := Ideal) V c).arrAt_eq_of_cover 3
    (Cert.Sage.affine (M := 303104) (K := 128) (N := 128) (V c main_v43) (V c main_v44) (V c main_v45))
    (fun t _ => flushed0 V c t) covered0

end Cert.KernelIdeal.RegionVal

end
-- ==== Proof.Region1.lean ====
/-
  The second dense product of the kernel program, as one function of whole arrays.

  The region walks 74 blocks of 4096 rows. At each block it multiplies the block's rows of the left operand
  (4096 × 256) by the whole right operand (256 × 128) into a zero accumulator and adds the one-row bias to every
  row. Entry (p, j) of a block's result is therefore Σ_k x(p,k)·w(k,j) + b(0,j) with x the block's rows; block t
  holds rows 4096·t … 4096·t + 4095 of the left operand and of the output, the 74 blocks tile the 303104 rows, and
  so the output array ends holding Σ_k X(r,k)·W(k,j) + B(0,j) at every (r, j): `Cert.Sage.affine` of the three
  input arrays as the region finds them.
-/
import proofs.«181482_j36249523978328_1_alg».proof.Proof.Gen.KernelIdeal.Frame
import proofs.«181482_j36249523978328_1_alg».proof.Proof.Spec
import proofs.«181482_j36249523978328_1_alg».proof.Proof.LibPlainDot
import Idealize.ShloMosaic.Lib.Pipeline.Value
import Idealize.ShloMosaic.Lib.ValueLayout

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

/-- The two zero offsets, as the constant function. -/
theorem zeroOffsets1 : (![0, 0] : Fin 2 → Nat) = fun _ => 0 := funext fun a => by fin_cases a <;> rfl

/-- The product's dimension numbers are those of rows times columns: the left operand is contracted on its
    second axis, the right on its first. -/
theorem plainDot1 : Cert.LibHostRead.PlainDot dot_S4096x256_S256x128_S4096x128_1_0_0_1_n_n :=
  Cert.LibPlainDot.plainDot_plain 4096 256 128

/-- One block's result at (p, j): the block's row p times column j of the weights, plus the bias at j. -/
theorem blockValue1 (x0 : Vec Ideal S4096x256 .bf16) (x1 : Vec Ideal S256x128 .bf16) (x2 : Vec Ideal S1x128 .f32)
    (p : Fin 4096) (j : Fin 128) :
    k1_pay1 (F := Ideal) x0 x1 x2 (ix2 p j) = (∑ k : Fin 256, x0 (ix2 p k) * x1 (ix2 k j)) + x2 (ix2 (0 : Fin 1) j) := by
  unfold k1_pay1
  rw [addf_apply, shapeCast_self, shapeCast_self, shapeCast_self]
  refine congrArg₂ (· + ·) ?_ ?_
  · exact Cert.LibPlainDot.vmatmul_apply _ plainDot1 x0 x1 p j
  · exact broadcastTo_1b_ab_apply x2 _ p j

/-- A block's result is the block of the whole product: if the block's left operand is rows 4096·T … of `X`,
    its right operand is `W` and its bias row is `B`, then its entry at `y` is the whole product's entry at the
    index `i` that lies 4096·T rows below `y`. -/
theorem blockValue1_affine (X : S303104x256.Idx → EReal) (W : S256x128.Idx → EReal) (B : S1x128.Idx → EReal) (T : ℕ)
    (x0 : Vec Ideal S4096x256 .bf16) (x1 : Vec Ideal S256x128 .bf16) (x2 : Vec Ideal S1x128 .f32)
    (h0 : ∀ (p : Fin 4096) (r : Fin 303104) (k : Fin 256), r.val = T * 4096 + p.val → x0 (ix2 p k) = X (ix2 r k))
    (h1 : ∀ (k : Fin 256) (j : Fin 128), x1 (ix2 k j) = W (ix2 k j))
    (h2 : ∀ j : Fin 128, x2 (ix2 (0 : Fin 1) j) = B (ix2 (0 : Fin 1) j))
    (y : S4096x128.Idx) (i : S303104x128.Idx) (hi0 : (i 0).val = T * 4096 + (y 0).val) (hi1 : (i 1).val = (y 1).val) :
    k1_pay1 (F := Ideal) x0 x1 x2 y = Cert.Sage.affine (M := 303104) (K := 256) (N := 128) X W B i := by
  obtain ⟨p, j, rfl⟩ : ∃ (p : Fin 4096) (j : Fin 128), y = ix2 p j := ⟨y 0, y 1, eq_ix2 y⟩
  obtain ⟨r, j', rfl⟩ : ∃ (r : Fin 303104) (j' : Fin 128), i = ix2 r j' := ⟨i 0, i 1, eq_ix2 i⟩
  obtain rfl : j' = j := Fin.ext hi1
  rw [blockValue1, Cert.Sage.affine_apply, h2]
  refine congrArg (· + B (ix2 (0 : Fin 1) j')) (Finset.sum_congr rfl fun k _ => ?_)
  rw [h0 p r k hi0, h1]

/-- The printed index maps, decided over the 74 points: the left operand's and the output's blocks are at row
    block `t`, column block 0; the weights and the bias are always at block (0, 0). -/
theorem blockIndices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of the whole product of the arrays the region finds. -/
theorem flushed1 (c : Dev nD) (t : Fin cfg1.N) :
    (dat1 (F := Ideal) V c).flushed 3 t = ((cfg1.win 3).blk t).view.read (Elt Ideal)
      (Cert.Sage.affine (M := 303104) (K := 256) (N := 128) (V c main_v83) (V c main_v84) (V c main_v85)) := by
  show (cfg1.win 3).cut (grid1.coords t) ((dat1 V c).after 3 t) = _
  rw [after1_3]
  unfold out1_3
  rw [View.canon_unit_zero zeroOffsets1]
  simp only [View.ld_unit_zero (S := S4096x256) zeroOffsets1, View.ld_unit_zero (S := S256x128) zeroOffsets1,
    View.ld_unit_zero (S := S1x128) zeroOffsets1]
  obtain ⟨e00, e01, e10, e11, e20, e21, e30, e31⟩ := blockIndices1 t
  funext y
  refine blockValue1_affine (V c main_v83) (V c main_v84) (V c main_v85) t.val
    (iblk1 V c 0 t) (iblk1 V c 1 t) (iblk1 V c 2 t) ?_ ?_ ?_ ((cfg1.win 3).xinj (grid1.coords t) y)
    (((cfg1.win 3).blk t).view.emb y) ?_ ?_
  · intro p r k hr
    show V c main_v83 (((cfg1.win 0).blk t).view.emb (ix2 p k)) = V c main_v83 (ix2 r k)
    refine congrArg (V c main_v83) (funext fun a => Fin.ext ?_)
    match a with
    | ⟨0, _⟩ => show win1_0.index t (0 : Fin 2) * 4096 + 1 * p.val = r.val; omega
    | ⟨1, _⟩ => show win1_0.index t (1 : Fin 2) * 256 + 1 * k.val = k.val; omega
  · intro k j
    show V c main_v84 (((cfg1.win 1).blk t).view.emb (ix2 k j)) = V c main_v84 (ix2 k j)
    refine congrArg (V c main_v84) (funext fun a => Fin.ext ?_)
    match a with
    | ⟨0, _⟩ => show win1_1.index t (0 : Fin 2) * 256 + 1 * k.val = k.val; omega
    | ⟨1, _⟩ => show win1_1.index t (1 : Fin 2) * 128 + 1 * j.val = j.val; omega
  · intro j
    show V c main_v85 (((cfg1.win 2).blk t).view.emb (ix2 (0 : Fin 1) j)) = V c main_v85 (ix2 (0 : Fin 1) j)
    refine congrArg (V c main_v85) (funext fun a => Fin.ext ?_)
    match a with
    | ⟨0, _⟩ => show win1_2.index t (0 : Fin 2) * 1 + 1 * 0 = 0; omega
    | ⟨1, _⟩ => show win1_2.index t (1 : Fin 2) * 128 + 1 * j.val = j.val; omega
  · show win1_3.index t (0 : Fin 2) * 4096 + 1 * (y 0).val = t.val * 4096 + (y 0).val; omega
  · show win1_3.index t (1 : Fin 2) * 128 + 1 * (y 1).val = (y 1).val; omega

/-- An index of the output array is in point `t`'s block iff each coordinate is in the block's range on its axis. -/
theorem mem_block1 (t : Fin cfg1.N) (i : S303104x128.Idx) :
    i ∈ ((cfg1.win 3).blk t).view.set ↔ ∀ a : Fin 2, win1_3.index t a * S4096x128.size a ≤ (i a).val
      ∧ (i a).val < win1_3.index t a * S4096x128.size a + S4096x128.size a := by
  show i ∈ ((View.whole main_v86).slice (win1_3.rect t)).set ↔ _
  rw [View.set_slice_whole, Rect.mem_set_unit]
  exact Iff.rfl

/-- Every index of the output array lies in the block of the point its row's quotient by 4096 names. -/
theorem covered1 (i : S303104x128.Idx) :
    ∃ t : Fin cfg1.N, (cfg1.win 3).flush t = true ∧ i ∈ ((cfg1.win 3).blk t).view.set := by
  have hi0 : (i 0).val < 303104 := (i 0).isLt
  have hi1 : (i 1).val < 128 := (i 1).isLt
  have hN : grid1.N = 74 := N_1
  let t : Fin cfg1.N := ⟨(i 0).val / 4096, by show (i 0).val / 4096 < grid1.N; omega⟩
  obtain ⟨-, -, -, -, -, -, e30, e31⟩ := blockIndices1 t
  have ht : t.val = (i 0).val / 4096 := rfl
  refine ⟨t, flush1_3 t, ?_⟩
  rw [mem_block1]
  intro a
  match a with
  | ⟨0, _⟩ =>
    show win1_3.index t (0 : Fin 2) * 4096 ≤ (i 0).val ∧ (i 0).val < win1_3.index t (0 : Fin 2) * 4096 + 4096
    omega
  | ⟨1, _⟩ =>
    show win1_3.index t (1 : Fin 2) * 128 ≤ (i 1).val ∧ (i 1).val < win1_3.index t (1 : Fin 2) * 128 + 128
    omega

/-- The output array after the region: the whole product of the three input arrays as the region finds them. -/
theorem region1 (c : Dev nD) :
    (dat1 (F := Ideal) V c).arrAt 3 cfg1.N
      = Cert.Sage.affine (M := 303104) (K := 256) (N := 128) (V c main_v83) (V c main_v84) (V c main_v85) :=
  (dat1 (F := Ideal) V c).arrAt_eq_of_cover 3
    (Cert.Sage.affine (M := 303104) (K := 256) (N := 128) (V c main_v83) (V c main_v84) (V c main_v85))
    (fun t _ => flushed1 V c t) covered1

end Cert.KernelIdeal.RegionVal

end
-- ==== Proof.Region2.lean ====
/-
  The third dense product of the kernel program, as one function of whole arrays.

  The region walks 74 blocks of 4096 rows. At each block it multiplies the block's rows of the left operand
  (4096 × 256) by the whole right operand (256 × 64) into a zero accumulator and adds the one-row bias to every
  row. Entry (p, j) of a block's result is therefore Σ_k x(p,k)·w(k,j) + b(0,j) with x the block's rows; block t
  holds rows 4096·t … 4096·t + 4095 of the left operand and of the output, the 74 blocks tile the 303104 rows, and
  so the output array ends holding Σ_k X(r,k)·W(k,j) + B(0,j) at every (r, j): `Cert.Sage.affine` of the three
  input arrays as the region finds them.
-/
import proofs.«181482_j36249523978328_1_alg».proof.Proof.Gen.KernelIdeal.Frame
import proofs.«181482_j36249523978328_1_alg».proof.Proof.Spec
import proofs.«181482_j36249523978328_1_alg».proof.Proof.LibPlainDot
import Idealize.ShloMosaic.Lib.Pipeline.Value
import Idealize.ShloMosaic.Lib.ValueLayout

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

/-- The two zero offsets, as the constant function. -/
theorem zeroOffsets2 : (![0, 0] : Fin 2 → Nat) = fun _ => 0 := funext fun a => by fin_cases a <;> rfl

/-- The product's dimension numbers are those of rows times columns: the left operand is contracted on its
    second axis, the right on its first. -/
theorem plainDot2 : Cert.LibHostRead.PlainDot dot_S4096x256_S256x64_S4096x64_1_0_0_1_n_n :=
  Cert.LibPlainDot.plainDot_plain 4096 256 64

/-- One block's result at (p, j): the block's row p times column j of the weights, plus the bias at j. -/
theorem blockValue2 (x0 : Vec Ideal S4096x256 .bf16) (x1 : Vec Ideal S256x64 .bf16) (x2 : Vec Ideal S1x64 .f32)
    (p : Fin 4096) (j : Fin 64) :
    k2_pay1 (F := Ideal) x0 x1 x2 (ix2 p j) = (∑ k : Fin 256, x0 (ix2 p k) * x1 (ix2 k j)) + x2 (ix2 (0 : Fin 1) j) := by
  unfold k2_pay1
  rw [addf_apply, shapeCast_self, shapeCast_self, shapeCast_self]
  refine congrArg₂ (· + ·) ?_ ?_
  · exact Cert.LibPlainDot.vmatmul_apply _ plainDot2 x0 x1 p j
  · exact broadcastTo_1b_ab_apply x2 _ p j

/-- A block's result is the block of the whole product: if the block's left operand is rows 4096·T … of `X`,
    its right operand is `W` and its bias row is `B`, then its entry at `y` is the whole product's entry at the
    index `i` that lies 4096·T rows below `y`. -/
theorem blockValue2_affine (X : S303104x256.Idx → EReal) (W : S256x64.Idx → EReal) (B : S1x64.Idx → EReal) (T : ℕ)
    (x0 : Vec Ideal S4096x256 .bf16) (x1 : Vec Ideal S256x64 .bf16) (x2 : Vec Ideal S1x64 .f32)
    (h0 : ∀ (p : Fin 4096) (r : Fin 303104) (k : Fin 256), r.val = T * 4096 + p.val → x0 (ix2 p k) = X (ix2 r k))
    (h1 : ∀ (k : Fin 256) (j : Fin 64), x1 (ix2 k j) = W (ix2 k j))
    (h2 : ∀ j : Fin 64, x2 (ix2 (0 : Fin 1) j) = B (ix2 (0 : Fin 1) j))
    (y : S4096x64.Idx) (i : S303104x64.Idx) (hi0 : (i 0).val = T * 4096 + (y 0).val) (hi1 : (i 1).val = (y 1).val) :
    k2_pay1 (F := Ideal) x0 x1 x2 y = Cert.Sage.affine (M := 303104) (K := 256) (N := 64) X W B i := by
  obtain ⟨p, j, rfl⟩ : ∃ (p : Fin 4096) (j : Fin 64), y = ix2 p j := ⟨y 0, y 1, eq_ix2 y⟩
  obtain ⟨r, j', rfl⟩ : ∃ (r : Fin 303104) (j' : Fin 64), i = ix2 r j' := ⟨i 0, i 1, eq_ix2 i⟩
  obtain rfl : j' = j := Fin.ext hi1
  rw [blockValue2, Cert.Sage.affine_apply, h2]
  refine congrArg (· + B (ix2 (0 : Fin 1) j')) (Finset.sum_congr rfl fun k _ => ?_)
  rw [h0 p r k hi0, h1]

/-- The printed index maps, decided over the 74 points: the left operand's and the output's blocks are at row
    block `t`, column block 0; the weights and the bias are always at block (0, 0). -/
theorem blockIndices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point `t` writes back is block `t` of the whole product of the arrays the region finds. -/
theorem flushed2 (c : Dev nD) (t : Fin cfg2.N) :
    (dat2 (F := Ideal) V c).flushed 3 t = ((cfg2.win 3).blk t).view.read (Elt Ideal)
      (Cert.Sage.affine (M := 303104) (K := 256) (N := 64) (V c main_v123) (V c main_v124) (V c main_v125)) := by
  show (cfg2.win 3).cut (grid2.coords t) ((dat2 V c).after 3 t) = _
  rw [after2_3]
  unfold out2_3
  rw [View.canon_unit_zero zeroOffsets2]
  simp only [View.ld_unit_zero (S := S4096x256) zeroOffsets2, View.ld_unit_zero (S := S256x64) zeroOffsets2,
    View.ld_unit_zero (S := S1x64) zeroOffsets2]
  obtain ⟨e00, e01, e10, e11, e20, e21, e30, e31⟩ := blockIndices2 t
  funext y
  refine blockValue2_affine (V c main_v123) (V c main_v124) (V c main_v125) t.val
    (iblk2 V c 0 t) (iblk2 V c 1 t) (iblk2 V c 2 t) ?_ ?_ ?_ ((cfg2.win 3).xinj (grid2.coords t) y)
    (((cfg2.win 3).blk t).view.emb y) ?_ ?_
  · intro p r k hr
    show V c main_v123 (((cfg2.win 0).blk t).view.emb (ix2 p k)) = V c main_v123 (ix2 r k)
    refine congrArg (V c main_v123) (funext fun a => Fin.ext ?_)
    match a with
    | ⟨0, _⟩ => show win2_0.index t (0 : Fin 2) * 4096 + 1 * p.val = r.val; omega
    | ⟨1, _⟩ => show win2_0.index t (1 : Fin 2) * 256 + 1 * k.val = k.val; omega
  · intro k j
    show V c main_v124 (((cfg2.win 1).blk t).view.emb (ix2 k j)) = V c main_v124 (ix2 k j)
    refine congrArg (V c main_v124) (funext fun a => Fin.ext ?_)
    match a with
    | ⟨0, _⟩ => show win2_1.index t (0 : Fin 2) * 256 + 1 * k.val = k.val; omega
    | ⟨1, _⟩ => show win2_1.index t (1 : Fin 2) * 64 + 1 * j.val = j.val; omega
  · intro j
    show V c main_v125 (((cfg2.win 2).blk t).view.emb (ix2 (0 : Fin 1) j)) = V c main_v125 (ix2 (0 : Fin 1) j)
    refine congrArg (V c main_v125) (funext fun a => Fin.ext ?_)
    match a with
    | ⟨0, _⟩ => show win2_2.index t (0 : Fin 2) * 1 + 1 * 0 = 0; omega
    | ⟨1, _⟩ => show win2_2.index t (1 : Fin 2) * 64 + 1 * j.val = j.val; omega
  · show win2_3.index t (0 : Fin 2) * 4096 + 1 * (y 0).val = t.val * 4096 + (y 0).val; omega
  · show win2_3.index t (1 : Fin 2) * 64 + 1 * (y 1).val = (y 1).val; omega

/-- An index of the output array is in point `t`'s block iff each coordinate is in the block's range on its axis. -/
theorem mem_block2 (t : Fin cfg2.N) (i : S303104x64.Idx) :
    i ∈ ((cfg2.win 3).blk t).view.set ↔ ∀ a : Fin 2, win2_3.index t a * S4096x64.size a ≤ (i a).val
      ∧ (i a).val < win2_3.index t a * S4096x64.size a + S4096x64.size a := by
  show i ∈ ((View.whole main_v126).slice (win2_3.rect t)).set ↔ _
  rw [View.set_slice_whole, Rect.mem_set_unit]
  exact Iff.rfl

/-- Every index of the output array lies in the block of the point its row's quotient by 4096 names. -/
theorem covered2 (i : S303104x64.Idx) :
    ∃ t : Fin cfg2.N, (cfg2.win 3).flush t = true ∧ i ∈ ((cfg2.win 3).blk t).view.set := by
  have hi0 : (i 0).val < 303104 := (i 0).isLt
  have hi1 : (i 1).val < 64 := (i 1).isLt
  have hN : grid2.N = 74 := N_2
  let t : Fin cfg2.N := ⟨(i 0).val / 4096, by show (i 0).val / 4096 < grid2.N; omega⟩
  obtain ⟨-, -, -, -, -, -, e30, e31⟩ := blockIndices2 t
  have ht : t.val = (i 0).val / 4096 := rfl
  refine ⟨t, flush2_3 t, ?_⟩
  rw [mem_block2]
  intro a
  match a with
  | ⟨0, _⟩ =>
    show win2_3.index t (0 : Fin 2) * 4096 ≤ (i 0).val ∧ (i 0).val < win2_3.index t (0 : Fin 2) * 4096 + 4096
    omega
  | ⟨1, _⟩ =>
    show win2_3.index t (1 : Fin 2) * 64 ≤ (i 1).val ∧ (i 1).val < win2_3.index t (1 : Fin 2) * 64 + 64
    omega

/-- The output array after the region: the whole product of the three input arrays as the region finds them. -/
theorem region2 (c : Dev nD) :
    (dat2 (F := Ideal) V c).arrAt 3 cfg2.N
      = Cert.Sage.affine (M := 303104) (K := 256) (N := 64) (V c main_v123) (V c main_v124) (V c main_v125) :=
  (dat2 (F := Ideal) V c).arrAt_eq_of_cover 3
    (Cert.Sage.affine (M := 303104) (K := 256) (N := 64) (V c main_v123) (V c main_v124) (V c main_v125))
    (fun t _ => flushed2 V c t) covered2

end Cert.KernelIdeal.RegionVal

end
-- ==== Proof.KernelValue.lean ====
/-
  The kernel program's result as one function of its arguments.

  The run leaves the result buffer at the folded contents `W19`. Unfolding the fold segment by segment: the host
  lines before a dense product prepare its operands, the product's region leaves its output array at the product
  with the bias row added (`Cert.Sage.affine` of the operands), the lines after it cut and rectify, and so on
  through the three layers. The degrees and the edge lists, computed once before the first product, are carried
  unchanged across the regions. Altogether the result is `KV.kernelValue` of the argument arrays.
-/
import proofs.«181482_j36249523978328_1_alg».proof.Proof.KernelRun
import proofs.«181482_j36249523978328_1_alg».proof.Proof.HostVals
import proofs.«181482_j36249523978328_1_alg».proof.Proof.Region0
import proofs.«181482_j36249523978328_1_alg».proof.Proof.Region1
import proofs.«181482_j36249523978328_1_alg».proof.Proof.Region2

set_option maxRecDepth 16384

noncomputable section

namespace Cert.KernelIdeal.KVal

open Cert.KernelIdeal Cert.KernelIdeal.Gen Cert.KernelIdeal.Facts₀ Cert.KernelIdeal.Facts
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first product's entry -/

theorem W3_v5 : W3 m ρ c (Proc.devRef .tc main_v5) = KV.degU (m ((c : Thread nD τ).loc main_arg2)) := KV.a0_v5 (W0 m ρ c)
theorem W3_v11 : W3 m ρ c (Proc.devRef .tc main_v11) = KV.degI (m ((c : Thread nD τ).loc main_arg3)) := KV.a0_v11 (W0 m ρ c)
theorem W3_arg2 : W3 m ρ c (Proc.devRef .tc main_arg2) = m ((c : Thread nD τ).loc main_arg2) := KV.a0_keep_arg2 (W0 m ρ c)
theorem W3_arg3 : W3 m ρ c (Proc.devRef .tc main_arg3) = m ((c : Thread nD τ).loc main_arg3) := KV.a0_keep_arg3 (W0 m ρ c)
theorem W3_arg7 : W3 m ρ c (Proc.devRef .tc main_arg7) = m ((c : Thread nD τ).loc main_arg7) := KV.a0_keep_arg7 (W0 m ρ c)
theorem W3_arg8 : W3 m ρ c (Proc.devRef .tc main_arg8) = m ((c : Thread nD τ).loc main_arg8) := KV.a0_keep_arg8 (W0 m ρ c)
theorem W3_arg9 : W3 m ρ c (Proc.devRef .tc main_arg9) = m ((c : Thread nD τ).loc main_arg9) := KV.a0_keep_arg9 (W0 m ρ c)
theorem W3_arg10 : W3 m ρ c (Proc.devRef .tc main_arg10) = m ((c : Thread nD τ).loc main_arg10) := KV.a0_keep_arg10 (W0 m ρ c)
theorem W3_arg11 : W3 m ρ c (Proc.devRef .tc main_arg11) = m ((c : Thread nD τ).loc main_arg11) := KV.a0_keep_arg11 (W0 m ρ c)
theorem W3_arg12 : W3 m ρ c (Proc.devRef .tc main_arg12) = m ((c : Thread nD τ).loc main_arg12) := KV.a0_keep_arg12 (W0 m ρ c)

/-- The first product's padded result. -/
theorem W4_v46 : W4 m ρ c (Proc.devRef .tc main_v46)
    = KV.R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 3).trans ?_
  rw [RegionVal.region0 (V3 m ρ) c]
  have e43 : V3 m ρ c main_v43 = _ := KV.a0_v43 (W0 m ρ c)
  have e44 : V3 m ρ c main_v44 = _ := KV.a0_v44 (W0 m ρ c)
  have e45 : V3 m ρ c main_v45 = _ := KV.a0_v45 (W0 m ρ c)
  rw [e43, e44, e45]
  rfl

/-! ## Across the first region: what it does not write is kept -/

theorem W4_v5 : W4 m ρ c (Proc.devRef .tc main_v5) = KV.degU (m ((c : Thread nD τ).loc main_arg2)) :=
  (W4_of_ne m ρ c main_v5 (by decide)).trans (W3_v5 m ρ c)
theorem W4_v11 : W4 m ρ c (Proc.devRef .tc main_v11) = KV.degI (m ((c : Thread nD τ).loc main_arg3)) :=
  (W4_of_ne m ρ c main_v11 (by decide)).trans (W3_v11 m ρ c)
theorem W4_arg2 : W4 m ρ c (Proc.devRef .tc main_arg2) = m ((c : Thread nD τ).loc main_arg2) :=
  (W4_of_ne m ρ c main_arg2 (by decide)).trans (W3_arg2 m ρ c)
theorem W4_arg3 : W4 m ρ c (Proc.devRef .tc main_arg3) = m ((c : Thread nD τ).loc main_arg3) :=
  (W4_of_ne m ρ c main_arg3 (by decide)).trans (W3_arg3 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)

/-! ## At the second product's entry and across its region -/

theorem W10_v5 : W10 m ρ c (Proc.devRef .tc main_v5) = KV.degU (m ((c : Thread nD τ).loc main_arg2)) := (KV.a1_keep_v5 (W4 m ρ c)).trans (W4_v5 m ρ c)
theorem W10_v11 : W10 m ρ c (Proc.devRef .tc main_v11) = KV.degI (m ((c : Thread nD τ).loc main_arg3)) := (KV.a1_keep_v11 (W4 m ρ c)).trans (W4_v11 m ρ c)
theorem W10_arg2 : W10 m ρ c (Proc.devRef .tc main_arg2) = m ((c : Thread nD τ).loc main_arg2) := (KV.a1_keep_arg2 (W4 m ρ c)).trans (W4_arg2 m ρ c)
theorem W10_arg3 : W10 m ρ c (Proc.devRef .tc main_arg3) = m ((c : Thread nD τ).loc main_arg3) := (KV.a1_keep_arg3 (W4 m ρ c)).trans (W4_arg3 m ρ c)
theorem W10_arg10 : W10 m ρ c (Proc.devRef .tc main_arg10) = m ((c : Thread nD τ).loc main_arg10) := (KV.a1_keep_arg10 (W4 m ρ c)).trans (W4_arg10 m ρ c)
theorem W10_arg11 : W10 m ρ c (Proc.devRef .tc main_arg11) = m ((c : Thread nD τ).loc main_arg11) := (KV.a1_keep_arg11 (W4 m ρ c)).trans (W4_arg11 m ρ c)
theorem W10_arg12 : W10 m ρ c (Proc.devRef .tc main_arg12) = m ((c : Thread nD τ).loc main_arg12) := (KV.a1_keep_arg12 (W4 m ρ c)).trans (W4_arg12 m ρ c)

/-- The second product's padded result. -/
theorem W11_v86 : W11 m ρ c (Proc.devRef .tc main_v86)
    = KV.R1 (KV.R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
        (m ((c : Thread nD τ).loc main_arg2)) (m ((c : Thread nD τ).loc main_arg3)) (m ((c : Thread nD τ).loc main_arg7)) (m ((c : Thread nD τ).loc main_arg8)) (m ((c : Thread nD τ).loc main_arg9)) := by
  refine (W11_arr m ρ c 3).trans ?_
  rw [RegionVal.region1 (V10 m ρ) c]
  have e83 : V10 m ρ c main_v83 = _ := KV.a1_v83 (W4 m ρ c)
  have e84 : V10 m ρ c main_v84 = _ := KV.a1_v84 (W4 m ρ c)
  have e85 : V10 m ρ c main_v85 = _ := KV.a1_v85 (W4 m ρ c)
  rw [e83, e84, e85, W4_v46, W4_v5, W4_v11, W4_arg2, W4_arg3, W4_arg7, W4_arg8, W4_arg9]
  rfl

theorem W11_v5 : W11 m ρ c (Proc.devRef .tc main_v5) = KV.degU (m ((c : Thread nD τ).loc main_arg2)) :=
  (W11_of_ne m ρ c main_v5 (by decide)).trans (W10_v5 m ρ c)
theorem W11_v11 : W11 m ρ c (Proc.devRef .tc main_v11) = KV.degI (m ((c : Thread nD τ).loc main_arg3)) :=
  (W11_of_ne m ρ c main_v11 (by decide)).trans (W10_v11 m ρ c)
theorem W11_arg2 : W11 m ρ c (Proc.devRef .tc main_arg2) = m ((c : Thread nD τ).loc main_arg2) :=
  (W11_of_ne m ρ c main_arg2 (by decide)).trans (W10_arg2 m ρ c)
theorem W11_arg3 : W11 m ρ c (Proc.devRef .tc main_arg3) = m ((c : Thread nD τ).loc main_arg3) :=
  (W11_of_ne m ρ c main_arg3 (by decide)).trans (W10_arg3 m ρ c)
theorem W11_arg10 : W11 m ρ c (Proc.devRef .tc main_arg10) = m ((c : Thread nD τ).loc main_arg10) :=
  (W11_of_ne m ρ c main_arg10 (by decide)).trans (W10_arg10 m ρ c)
theorem W11_arg11 : W11 m ρ c (Proc.devRef .tc main_arg11) = m ((c : Thread nD τ).loc main_arg11) :=
  (W11_of_ne m ρ c main_arg11 (by decide)).trans (W10_arg11 m ρ c)
theorem W11_arg12 : W11 m ρ c (Proc.devRef .tc main_arg12) = m ((c : Thread nD τ).loc main_arg12) :=
  (W11_of_ne m ρ c main_arg12 (by decide)).trans (W10_arg12 m ρ c)

/-! ## The third product and the result -/

/-- The third product's padded result. -/
theorem W18_v126 : W18 m ρ c (Proc.devRef .tc main_v126)
    = KV.R2 (KV.R1 (KV.R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
        (m ((c : Thread nD τ).loc main_arg2)) (m ((c : Thread nD τ).loc main_arg3)) (m ((c : Thread nD τ).loc main_arg7)) (m ((c : Thread nD τ).loc main_arg8)) (m ((c : Thread nD τ).loc main_arg9)))
        (m ((c : Thread nD τ).loc main_arg2)) (m ((c : Thread nD τ).loc main_arg3)) (m ((c : Thread nD τ).loc main_arg10)) (m ((c : Thread nD τ).loc main_arg11)) (m ((c : Thread nD τ).loc main_arg12)) := by
  refine (W18_arr m ρ c 3).trans ?_
  rw [RegionVal.region2 (V17 m ρ) c]
  have e123 : V17 m ρ c main_v123 = _ := KV.a2_v123 (W11 m ρ c)
  have e124 : V17 m ρ c main_v124 = _ := KV.a2_v124 (W11 m ρ c)
  have e125 : V17 m ρ c main_v125 = _ := KV.a2_v125 (W11 m ρ c)
  rw [e123, e124, e125, W11_v86, W11_v5, W11_v11, W11_arg2, W11_arg3, W11_arg10, W11_arg11, W11_arg12]
  rfl

/-- The program's result is `kernelValue` of its arguments. -/
theorem result : W19 m ρ c (Proc.devRef .tc main_v129)
    = KV.kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (KV.a3_v129 (W18 m ρ c)).trans ?_
  rw [W18_v126]
  rfl

end Cert.KernelIdeal.KVal

end
-- ==== Proof.LibLayoutRead.lean ====
/-
  Layout operations on matrices, read at a row and a column.

  Each statement names the entry of the operand that an entry of the result is:
  * two matrices stacked by rows (N₁ × C above N₂ × C): row r < N₁ of the stack is row r of the first, row N₁ + p is
    row p of the second (`catRows_top`, `catRows_bot`);
  * two matrices set side by side (N × D₁ left of N × D₂): column c < D₁ is column c of the first, column D₁ + k is
    column k of the second (`catCols_left`, `catCols_right`);
  * rows appended below a matrix leave its own rows as they were (`padBelow_apply`);
  * a block of whole rows starting at row o: row p of the block is row o + p of the matrix (`sliceRows_apply`).
  The extents are variables; a coordinate of the result and the coordinate of the operand it reads are tied by an
  equation of natural numbers given as a hypothesis, so that a caller at literal extents closes it by computation.
-/
import Idealize.ShloMosaic.Lib.Pipeline.Value
import Idealize.ShloMosaic.Lib.KernelVsHost
import Idealize.ShloMosaic.Lib.ValueIdx

namespace Cert.LibLayoutRead

open Idealize.ShloMosaic Idealize.ShloMosaic.ValueIdx

/-- Two arrays stacked by rows: a row of the stack above the first array's extent is that row of the first array. -/
theorem catRows_top {α : Type} {M N₁ N₂ C : ℕ} (x : (⟨2, ![N₁, C]⟩ : Shape).Idx → α) (y : (⟨2, ![N₂, C]⟩ : Shape).Idx → α)
    (h : Shape.Concatenates [(⟨2, ![N₁, C]⟩ : Shape), ⟨2, ![N₂, C]⟩] ⟨2, ![M, C]⟩ 0)
    (r : Fin M) (p : Fin N₁) (c : Fin C) (hr : r.val = p.val) :
    concatenate (⟨2, ![M, C]⟩ : Shape) 0 [⟨⟨2, ![N₁, C]⟩, x⟩, ⟨⟨2, ![N₂, C]⟩, y⟩] h (ix2 r c) = x (ix2 p c) :=
  concatenate_pair_apply_left (t := ⟨2, ![M, C]⟩) (s₁ := ⟨2, ![N₁, C]⟩) (s₂ := ⟨2, ![N₂, C]⟩) (0 : Fin 2) x y h _ rfl (ix2 p c) (by
    intro b
    match b with
    | ⟨0, _⟩ => exact hr.symm
    | ⟨1, _⟩ => rfl)

/-- Two arrays stacked by rows: row N₁ + p of the stack is row p of the second array. -/
theorem catRows_bot {α : Type} {M N₁ N₂ C : ℕ} (x : (⟨2, ![N₁, C]⟩ : Shape).Idx → α) (y : (⟨2, ![N₂, C]⟩ : Shape).Idx → α)
    (h : Shape.Concatenates [(⟨2, ![N₁, C]⟩ : Shape), ⟨2, ![N₂, C]⟩] ⟨2, ![M, C]⟩ 0)
    (r : Fin M) (p : Fin N₂) (c : Fin C) (hr : r.val = N₁ + p.val) :
    concatenate (⟨2, ![M, C]⟩ : Shape) 0 [⟨⟨2, ![N₁, C]⟩, x⟩, ⟨⟨2, ![N₂, C]⟩, y⟩] h (ix2 r c) = y (ix2 p c) :=
  concatenate_pair_apply_right (t := ⟨2, ![M, C]⟩) (s₁ := ⟨2, ![N₁, C]⟩) (s₂ := ⟨2, ![N₂, C]⟩) (0 : Fin 2) x y h _ rfl rfl (ix2 p c)
    (by
      intro b hb
      match b with
      | ⟨0, _⟩ => exact absurd rfl hb
      | ⟨1, _⟩ => rfl)
    (by show p.val + N₁ = r.val; omega)

/-- Two arrays set side by side: a column of the pair left of the first array's width is that column of the first. -/
theorem catCols_left {α : Type} {N K D₁ D₂ : ℕ} (x : (⟨2, ![N, D₁]⟩ : Shape).Idx → α) (y : (⟨2, ![N, D₂]⟩ : Shape).Idx → α)
    (h : Shape.Concatenates [(⟨2, ![N, D₁]⟩ : Shape), ⟨2, ![N, D₂]⟩] ⟨2, ![N, K]⟩ 1)
    (p : Fin N) (c : Fin K) (k : Fin D₁) (hc : c.val = k.val) :
    concatenate (⟨2, ![N, K]⟩ : Shape) 1 [⟨⟨2, ![N, D₁]⟩, x⟩, ⟨⟨2, ![N, D₂]⟩, y⟩] h (ix2 p c) = x (ix2 p k) :=
  concatenate_pair_apply_left (t := ⟨2, ![N, K]⟩) (s₁ := ⟨2, ![N, D₁]⟩) (s₂ := ⟨2, ![N, D₂]⟩) (1 : Fin 2) x y h _ rfl (ix2 p k) (by
    intro b
    match b with
    | ⟨0, _⟩ => rfl
    | ⟨1, _⟩ => exact hc.symm)

/-- Two arrays set side by side: column D₁ + k of the pair is column k of the second array. -/
theorem catCols_right {α : Type} {N K D₁ D₂ : ℕ} (x : (⟨2, ![N, D₁]⟩ : Shape).Idx → α) (y : (⟨2, ![N, D₂]⟩ : Shape).Idx → α)
    (h : Shape.Concatenates [(⟨2, ![N, D₁]⟩ : Shape), ⟨2, ![N, D₂]⟩] ⟨2, ![N, K]⟩ 1)
    (p : Fin N) (c : Fin K) (k : Fin D₂) (hc : c.val = D₁ + k.val) :
    concatenate (⟨2, ![N, K]⟩ : Shape) 1 [⟨⟨2, ![N, D₁]⟩, x⟩, ⟨⟨2, ![N, D₂]⟩, y⟩] h (ix2 p c) = y (ix2 p k) :=
  concatenate_pair_apply_right (t := ⟨2, ![N, K]⟩) (s₁ := ⟨2, ![N, D₁]⟩) (s₂ := ⟨2, ![N, D₂]⟩) (1 : Fin 2) x y h _ rfl rfl (ix2 p k)
    (by
      intro b hb
      match b with
      | ⟨0, _⟩ => rfl
      | ⟨1, _⟩ => exact absurd rfl hb)
    (by show k.val + D₁ = c.val; omega)

/-- Rows appended below an array leave its own rows as they were. -/
theorem padBelow_apply {α : Type} {M N C : ℕ} (hi : Fin 2 → ℕ) (x : (⟨2, ![N, C]⟩ : Shape).Idx → α) {u : Shape} (v : u.Idx → α)
    (h : (⟨2, ![N, C]⟩ : Shape).Pads ![0, 0] hi ![0, 0] ⟨2, ![M, C]⟩) (hu : 0 < u.numel)
    (r : Fin M) (p : Fin N) (c : Fin C) (hr : r.val = p.val) :
    pad (⟨2, ![M, C]⟩ : Shape) ![0, 0] hi ![0, 0] x v h hu (ix2 r c) = x (ix2 p c) :=
  pad_apply_of_inside (s := ⟨2, ![N, C]⟩) (t := ⟨2, ![M, C]⟩) ![0, 0] hi ![0, 0] x v h hu (ix2 r c) (ix2 p c) (by
    intro a
    match a with
    | ⟨0, _⟩ => show r.val = 0 + p.val * (0 + 1); omega
    | ⟨1, _⟩ => show c.val = 0 + c.val * (0 + 1); omega)

/-- A block of whole rows cut from an array: row p of the block is row o + p of the array. -/
theorem sliceRows_apply {α : Type} {M N C : ℕ} (o : ℕ) (x : (⟨2, ![M, C]⟩ : Shape).Idx → α)
    (h : (⟨2, ![M, C]⟩ : Shape).Slices ![o, 0] ⟨2, ![N, C]⟩)
    (p : Fin N) (r : Fin M) (c : Fin C) (hr : r.val = o + p.val) :
    extractStridedSlice (⟨2, ![N, C]⟩ : Shape) ![o, 0] x h (ix2 p c) = x (ix2 r c) :=
  extractStridedSlice_apply (s := ⟨2, ![M, C]⟩) (t := ⟨2, ![N, C]⟩) ![o, 0] x h (ix2 p c) (ix2 r c) (by
    intro a
    match a with
    | ⟨0, _⟩ => show r.val = o + p.val; exact hr
    | ⟨1, _⟩ => show c.val = 0 + c.val; omega)

end Cert.LibLayoutRead
-- ==== Proof.Layout0.lean ====
/-
  The first layer's operands and results, entry by entry.

  The left operand stacks the user rows above the item rows, each row being the node's own 64 features followed by its
  64 neighbourhood-mean features, and appends 3104 further rows; the narrowing cast is the identity on the extended
  reals. So for p < 200000 row p of the operand is [hU(p,·) | aU(p,·)], and for p < 100000 row 200000 + p is
  [hI(p,·) | aI(p,·)]. The right operand stacks the self weights above the neighbour weights: row k < 64 is Ws(k,·), row
  64 + k is Wn(k,·). The bias is laid out as one row. Of the padded 303104-row result, the user block is rows
  0 … 199999 and the item block is rows 200000 … 299999. With these readings the product over the doubled axis at such
  a row is the layer function at the node (`Cert.Sage.affine_cat`).
-/
import proofs.«181482_j36249523978328_1_alg».proof.Proof.KStages
import proofs.«181482_j36249523978328_1_alg».proof.Proof.LibLayoutRead
import Idealize.ShloMosaic.Lib.ValueLayout

noncomputable section

namespace Cert.KernelIdeal.KV

open Cert.KernelIdeal Idealize.ShloMosaic Idealize.ShloMosaic.ValueIdx Cert.LibLayoutRead

/-! ## The left operand at a user row and at an item row -/

/-- Row p < 200000, column k < 64: the user's own feature k. -/
theorem xin0_user_left (hU aU : FVec Ideal S200000x64 .f32) (hI aI : FVec Ideal S100000x64 .f32)
    (r : Fin 303104) (p : Fin 200000) (c : Fin 128) (k : Fin 64) (hr : r.val = p.val) (hc : c.val = k.val) :
    xin0 hU aU hI aI (ix2 r c) = hU (ix2 p k) := by
  unfold xin0
  refine (padBelow_apply _ _ _ _ _ r (⟨p.val, by omega⟩ : Fin 300000) c hr).trans ?_
  refine (truncf_apply (ψ := FTy.bf16) (φ := FTy.f32) _ _ _).trans ?_
  refine (catRows_top _ _ _ (⟨p.val, by omega⟩ : Fin 300000) p c rfl).trans ?_
  exact catCols_left _ _ _ p c k hc

/-- Row p < 200000, column 64 + k: the user's neighbourhood-mean feature k. -/
theorem xin0_user_right (hU aU : FVec Ideal S200000x64 .f32) (hI aI : FVec Ideal S100000x64 .f32)
    (r : Fin 303104) (p : Fin 200000) (c : Fin 128) (k : Fin 64) (hr : r.val = p.val) (hc : c.val = 64 + k.val) :
    xin0 hU aU hI aI (ix2 r c) = aU (ix2 p k) := by
  unfold xin0
  refine (padBelow_apply _ _ _ _ _ r (⟨p.val, by omega⟩ : Fin 300000) c hr).trans ?_
  refine (truncf_apply (ψ := FTy.bf16) (φ := FTy.f32) _ _ _).trans ?_
  refine (catRows_top _ _ _ (⟨p.val, by omega⟩ : Fin 300000) p c rfl).trans ?_
  exact catCols_right _ _ _ p c k hc

/-- Row 200000 + p with p < 100000, column k < 64: the item's own feature k. -/
theorem xin0_item_left (hU aU : FVec Ideal S200000x64 .f32) (hI aI : FVec Ideal S100000x64 .f32)
    (r : Fin 303104) (p : Fin 100000) (c : Fin 128) (k : Fin 64) (hr : r.val = 200000 + p.val) (hc : c.val = k.val) :
    xin0 hU aU hI aI (ix2 r c) = hI (ix2 p k) := by
  unfold xin0
  refine (padBelow_apply _ _ _ _ _ r (⟨200000 + p.val, by omega⟩ : Fin 300000) c hr).trans ?_
  refine (truncf_apply (ψ := FTy.bf16) (φ := FTy.f32) _ _ _).trans ?_
  refine (catRows_bot _ _ _ (⟨200000 + p.val, by omega⟩ : Fin 300000) p c rfl).trans ?_
  exact catCols_left _ _ _ p c k hc

/-- Row 200000 + p with p < 100000, column 64 + k: the item's neighbourhood-mean feature k. -/
theorem xin0_item_right (hU aU : FVec Ideal S200000x64 .f32) (hI aI : FVec Ideal S100000x64 .f32)
    (r : Fin 303104) (p : Fin 100000) (c : Fin 128) (k : Fin 64) (hr : r.val = 200000 + p.val) (hc : c.val = 64 + k.val) :
    xin0 hU aU hI aI (ix2 r c) = aI (ix2 p k) := by
  unfold xin0
  refine (padBelow_apply _ _ _ _ _ r (⟨200000 + p.val, by omega⟩ : Fin 300000) c hr).trans ?_
  refine (truncf_apply (ψ := FTy.bf16) (φ := FTy.f32) _ _ _).trans ?_
  refine (catRows_bot _ _ _ (⟨200000 + p.val, by omega⟩ : Fin 300000) p c rfl).trans ?_
  exact catCols_right _ _ _ p c k hc

/-! ## The right operand and the bias row -/

/-- Row k < 64 of the stacked weights is row k of the self weights. -/
theorem wcat0_upper (Ws Wn : FVec Ideal S64x128 .f32) (r : Fin 128) (k : Fin 64) (j : Fin 128) (hr : r.val = k.val) :
    wcat0 Ws Wn (ix2 r j) = Ws (ix2 k j) := by
  unfold wcat0
  refine (truncf_apply (ψ := FTy.bf16) (φ := FTy.f32) _ _ _).trans ?_
  exact catRows_top _ _ _ r k j hr

/-- Row 64 + k of the stacked weights is row k of the neighbour weights. -/
theorem wcat0_lower (Ws Wn : FVec Ideal S64x128 .f32) (r : Fin 128) (k : Fin 64) (j : Fin 128) (hr : r.val = 64 + k.val) :
    wcat0 Ws Wn (ix2 r j) = Wn (ix2 k j) := by
  unfold wcat0
  refine (truncf_apply (ψ := FTy.bf16) (φ := FTy.f32) _ _ _).trans ?_
  exact catRows_bot _ _ _ r k j hr

/-- The one row of the bias matrix holds the bias vector. -/
theorem brow128_apply (b : FVec Ideal S128 .f32) (j : Fin 128) : brow128 b (ix2 (0 : Fin 1) j) = b (ix1 j) := by
  unfold brow128
  exact shapeCast_a_1a_apply b _ (0 : Fin 1) j

/-! ## The user block and the item block of a padded result -/

/-- Row p of the user block is row p of the padded result. -/
theorem sliceU128_apply (R : FVec Ideal S303104x128 .f32) (p : Fin 200000) (r : Fin 303104) (j : Fin 128) (hr : r.val = p.val) :
    sliceU128 R (ix2 p j) = R (ix2 r j) := by
  unfold sliceU128
  refine (sliceRows_apply 0 _ _ p (⟨p.val, by omega⟩ : Fin 300000) j (by show p.val = 0 + p.val; omega)).trans ?_
  exact sliceRows_apply 0 R _ (⟨p.val, by omega⟩ : Fin 300000) r j (by show r.val = 0 + p.val; omega)

/-- Row p of the item block is row 200000 + p of the padded result. -/
theorem sliceI128_apply (R : FVec Ideal S303104x128 .f32) (p : Fin 100000) (r : Fin 303104) (j : Fin 128) (hr : r.val = 200000 + p.val) :
    sliceI128 R (ix2 p j) = R (ix2 r j) := by
  unfold sliceI128
  refine (sliceRows_apply 200000 _ _ p (⟨200000 + p.val, by omega⟩ : Fin 300000) j rfl).trans ?_
  exact sliceRows_apply 0 R _ (⟨200000 + p.val, by omega⟩ : Fin 300000) r j (by show r.val = 0 + (200000 + p.val); omega)

/-! ## The first layer at a user node and at an item node -/

/-- Entry (p, j) of the user block of the first product is the layer function at user p, feature j. -/
theorem layer0_U (hU aU : FVec Ideal S200000x64 .f32) (hI aI : FVec Ideal S100000x64 .f32) (Ws Wn : FVec Ideal S64x128 .f32)
    (b : FVec Ideal S128 .f32) (p : Fin 200000) (j : Fin 128) :
    sliceU128 (Cert.Sage.affine (xin0 hU aU hI aI) (wcat0 Ws Wn) (brow128 b)) (ix2 p j)
      = Cert.Sage.layerAt hU aU Ws Wn b p j := by
  refine (sliceU128_apply _ p (⟨p.val, by omega⟩ : Fin 303104) j rfl).trans ?_
  exact Cert.Sage.affine_cat (M := 303104) (K := 128) (O := 128) (Nn := 200000) (D := 64) rfl
    (xin0 hU aU hI aI) (wcat0 Ws Wn) (brow128 b) hU aU Ws Wn b (⟨p.val, by omega⟩ : Fin 303104) p j
    (fun k => xin0_user_left hU aU hI aI _ p _ k rfl rfl)
    (fun k => xin0_user_right hU aU hI aI _ p _ k rfl rfl)
    (fun k => wcat0_upper Ws Wn _ k j rfl)
    (fun k => wcat0_lower Ws Wn _ k j rfl)
    (brow128_apply b j)

/-- Entry (p, j) of the item block of the first product is the layer function at item p, feature j. -/
theorem layer0_I (hU aU : FVec Ideal S200000x64 .f32) (hI aI : FVec Ideal S100000x64 .f32) (Ws Wn : FVec Ideal S64x128 .f32)
    (b : FVec Ideal S128 .f32) (p : Fin 100000) (j : Fin 128) :
    sliceI128 (Cert.Sage.affine (xin0 hU aU hI aI) (wcat0 Ws Wn) (brow128 b)) (ix2 p j)
      = Cert.Sage.layerAt hI aI Ws Wn b p j := by
  refine (sliceI128_apply _ p (⟨200000 + p.val, by omega⟩ : Fin 303104) j rfl).trans ?_
  exact Cert.Sage.affine_cat (M := 303104) (K := 128) (O := 128) (Nn := 100000) (D := 64) rfl
    (xin0 hU aU hI aI) (wcat0 Ws Wn) (brow128 b) hI aI Ws Wn b (⟨200000 + p.val, by omega⟩ : Fin 303104) p j
    (fun k => xin0_item_left hU aU hI aI _ p _ k rfl rfl)
    (fun k => xin0_item_right hU aU hI aI _ p _ k rfl rfl)
    (fun k => wcat0_upper Ws Wn _ k j rfl)
    (fun k => wcat0_lower Ws Wn _ k j rfl)
    (brow128_apply b j)

end Cert.KernelIdeal.KV

end
-- ==== Proof.Layout1.lean ====
/-
  The second layer's operands and results, entry by entry.

  As in the first layer, with 128 features on each side: for p < 200000 row p of the left operand is
  [hU(p,·) | aU(p,·)] (128 + 128 columns), for p < 100000 row 200000 + p is [hI(p,·) | aI(p,·)], and the rows from
  300000 on are padding. Row k < 128 of the right operand is Ws(k,·), row 128 + k is Wn(k,·). The bias row and the two
  blocks of the padded 303104-row result are those of the first layer. So the product over the doubled axis at row p,
  or at row 200000 + p, is the layer function at that user, or at that item (`Cert.Sage.affine_cat`).
-/
import proofs.«181482_j36249523978328_1_alg».proof.Proof.Layout0

noncomputable section

namespace Cert.KernelIdeal.KV

open Cert.KernelIdeal Idealize.ShloMosaic Idealize.ShloMosaic.ValueIdx Cert.LibLayoutRead

/-! ## The left operand at a user row and at an item row -/

/-- Row p < 200000, column k < 128: the user's own feature k. -/
theorem xin1_user_left (hU aU : FVec Ideal S200000x128 .f32) (hI aI : FVec Ideal S100000x128 .f32)
    (r : Fin 303104) (p : Fin 200000) (c : Fin 256) (k : Fin 128) (hr : r.val = p.val) (hc : c.val = k.val) :
    xin1 hU aU hI aI (ix2 r c) = hU (ix2 p k) := by
  unfold xin1
  refine (padBelow_apply _ _ _ _ _ r (⟨p.val, by omega⟩ : Fin 300000) c hr).trans ?_
  refine (truncf_apply (ψ := FTy.bf16) (φ := FTy.f32) _ _ _).trans ?_
  refine (catRows_top _ _ _ (⟨p.val, by omega⟩ : Fin 300000) p c rfl).trans ?_
  exact catCols_left _ _ _ p c k hc

/-- Row p < 200000, column 128 + k: the user's neighbourhood-mean feature k. -/
theorem xin1_user_right (hU aU : FVec Ideal S200000x128 .f32) (hI aI : FVec Ideal S100000x128 .f32)
    (r : Fin 303104) (p : Fin 200000) (c : Fin 256) (k : Fin 128) (hr : r.val = p.val) (hc : c.val = 128 + k.val) :
    xin1 hU aU hI aI (ix2 r c) = aU (ix2 p k) := by
  unfold xin1
  refine (padBelow_apply _ _ _ _ _ r (⟨p.val, by omega⟩ : Fin 300000) c hr).trans ?_
  refine (truncf_apply (ψ := FTy.bf16) (φ := FTy.f32) _ _ _).trans ?_
  refine (catRows_top _ _ _ (⟨p.val, by omega⟩ : Fin 300000) p c rfl).trans ?_
  exact catCols_right _ _ _ p c k hc

/-- Row 200000 + p with p < 100000, column k < 128: the item's own feature k. -/
theorem xin1_item_left (hU aU : FVec Ideal S200000x128 .f32) (hI aI : FVec Ideal S100000x128 .f32)
    (r : Fin 303104) (p : Fin 100000) (c : Fin 256) (k : Fin 128) (hr : r.val = 200000 + p.val) (hc : c.val = k.val) :
    xin1 hU aU hI aI (ix2 r c) = hI (ix2 p k) := by
  unfold xin1
  refine (padBelow_apply _ _ _ _ _ r (⟨200000 + p.val, by omega⟩ : Fin 300000) c hr).trans ?_
  refine (truncf_apply (ψ := FTy.bf16) (φ := FTy.f32) _ _ _).trans ?_
  refine (catRows_bot _ _ _ (⟨200000 + p.val, by omega⟩ : Fin 300000) p c rfl).trans ?_
  exact catCols_left _ _ _ p c k hc

/-- Row 200000 + p with p < 100000, column 128 + k: the item's neighbourhood-mean feature k. -/
theorem xin1_item_right (hU aU : FVec Ideal S200000x128 .f32) (hI aI : FVec Ideal S100000x128 .f32)
    (r : Fin 303104) (p : Fin 100000) (c : Fin 256) (k : Fin 128) (hr : r.val = 200000 + p.val) (hc : c.val = 128 + k.val) :
    xin1 hU aU hI aI (ix2 r c) = aI (ix2 p k) := by
  unfold xin1
  refine (padBelow_apply _ _ _ _ _ r (⟨200000 + p.val, by omega⟩ : Fin 300000) c hr).trans ?_
  refine (truncf_apply (ψ := FTy.bf16) (φ := FTy.f32) _ _ _).trans ?_
  refine (catRows_bot _ _ _ (⟨200000 + p.val, by omega⟩ : Fin 300000) p c rfl).trans ?_
  exact catCols_right _ _ _ p c k hc

/-! ## The right operand -/

/-- Row k < 128 of the stacked weights is row k of the self weights. -/
theorem wcat1_upper (Ws Wn : FVec Ideal S128x128 .f32) (r : Fin 256) (k : Fin 128) (j : Fin 128) (hr : r.val = k.val) :
    wcat1 Ws Wn (ix2 r j) = Ws (ix2 k j) := by
  unfold wcat1
  refine (truncf_apply (ψ := FTy.bf16) (φ := FTy.f32) _ _ _).trans ?_
  exact catRows_top _ _ _ r k j hr

/-- Row 128 + k of the stacked weights is row k of the neighbour weights. -/
theorem wcat1_lower (Ws Wn : FVec Ideal S128x128 .f32) (r : Fin 256) (k : Fin 128) (j : Fin 128) (hr : r.val = 128 + k.val) :
    wcat1 Ws Wn (ix2 r j) = Wn (ix2 k j) := by
  unfold wcat1
  refine (truncf_apply (ψ := FTy.bf16) (φ := FTy.f32) _ _ _).trans ?_
  exact catRows_bot _ _ _ r k j hr

/-! ## The second layer at a user node and at an item node -/

/-- Entry (p, j) of the user block of the product is the layer function at user p, feature j. -/
theorem layer1_U (hU aU : FVec Ideal S200000x128 .f32) (hI aI : FVec Ideal S100000x128 .f32) (Ws Wn : FVec Ideal S128x128 .f32)
    (b : FVec Ideal S128 .f32) (p : Fin 200000) (j : Fin 128) :
    sliceU128 (Cert.Sage.affine (xin1 hU aU hI aI) (wcat1 Ws Wn) (brow128 b)) (ix2 p j)
      = Cert.Sage.layerAt hU aU Ws Wn b p j := by
  refine (sliceU128_apply _ p (⟨p.val, by omega⟩ : Fin 303104) j rfl).trans ?_
  exact Cert.Sage.affine_cat (M := 303104) (K := 256) (O := 128) (Nn := 200000) (D := 128) rfl
    (xin1 hU aU hI aI) (wcat1 Ws Wn) (brow128 b) hU aU Ws Wn b (⟨p.val, by omega⟩ : Fin 303104) p j
    (fun k => xin1_user_left hU aU hI aI _ p _ k rfl rfl)
    (fun k => xin1_user_right hU aU hI aI _ p _ k rfl rfl)
    (fun k => wcat1_upper Ws Wn _ k j rfl)
    (fun k => wcat1_lower Ws Wn _ k j rfl)
    (brow128_apply b j)

/-- Entry (p, j) of the item block of the product is the layer function at item p, feature j. -/
theorem layer1_I (hU aU : FVec Ideal S200000x128 .f32) (hI aI : FVec Ideal S100000x128 .f32) (Ws Wn : FVec Ideal S128x128 .f32)
    (b : FVec Ideal S128 .f32) (p : Fin 100000) (j : Fin 128) :
    sliceI128 (Cert.Sage.affine (xin1 hU aU hI aI) (wcat1 Ws Wn) (brow128 b)) (ix2 p j)
      = Cert.Sage.layerAt hI aI Ws Wn b p j := by
  refine (sliceI128_apply _ p (⟨200000 + p.val, by omega⟩ : Fin 303104) j rfl).trans ?_
  exact Cert.Sage.affine_cat (M := 303104) (K := 256) (O := 128) (Nn := 100000) (D := 128) rfl
    (xin1 hU aU hI aI) (wcat1 Ws Wn) (brow128 b) hI aI Ws Wn b (⟨200000 + p.val, by omega⟩ : Fin 303104) p j
    (fun k => xin1_item_left hU aU hI aI _ p _ k rfl rfl)
    (fun k => xin1_item_right hU aU hI aI _ p _ k rfl rfl)
    (fun k => wcat1_upper Ws Wn _ k j rfl)
    (fun k => wcat1_lower Ws Wn _ k j rfl)
    (brow128_apply b j)

end Cert.KernelIdeal.KV

end
-- ==== Proof.Layout2.lean ====
/-
  The third layer's operands and its item block, entry by entry.

  The left operand is laid out as in the second layer (128 + 128 columns; its reads are that layer's). The right
  operand stacks the 128 × 64 self weights above the 128 × 64 neighbour weights: row k < 128 is Ws(k,·), row 128 + k is
  Wn(k,·). The bias is one row of 64. Only the item block of the padded 303104-row result is kept: row p of it is row
  200000 + p of the result. So the product over the doubled axis at row 200000 + p is the layer function at item p
  (`Cert.Sage.affine_cat`).
-/
import proofs.«181482_j36249523978328_1_alg».proof.Proof.Layout1

noncomputable section

namespace Cert.KernelIdeal.KV

open Cert.KernelIdeal Idealize.ShloMosaic Idealize.ShloMosaic.ValueIdx Cert.LibLayoutRead

/-! ## The right operand and the bias row -/

/-- Row k < 128 of the stacked weights is row k of the self weights. -/
theorem wcat2_upper (Ws Wn : FVec Ideal S128x64 .f32) (r : Fin 256) (k : Fin 128) (j : Fin 64) (hr : r.val = k.val) :
    wcat2 Ws Wn (ix2 r j) = Ws (ix2 k j) := by
  unfold wcat2
  refine (truncf_apply (ψ := FTy.bf16) (φ := FTy.f32) _ _ _).trans ?_
  exact catRows_top _ _ _ r k j hr

/-- Row 128 + k of the stacked weights is row k of the neighbour weights. -/
theorem wcat2_lower (Ws Wn : FVec Ideal S128x64 .f32) (r : Fin 256) (k : Fin 128) (j : Fin 64) (hr : r.val = 128 + k.val) :
    wcat2 Ws Wn (ix2 r j) = Wn (ix2 k j) := by
  unfold wcat2
  refine (truncf_apply (ψ := FTy.bf16) (φ := FTy.f32) _ _ _).trans ?_
  exact catRows_bot _ _ _ r k j hr

/-- The one row of the bias matrix holds the bias vector. -/
theorem brow64_apply (b : FVec Ideal S64 .f32) (j : Fin 64) : brow64 b (ix2 (0 : Fin 1) j) = b (ix1 j) := by
  unfold brow64
  exact shapeCast_a_1a_apply b _ (0 : Fin 1) j

/-! ## The item block of the padded result -/

/-- Row p of the item block is row 200000 + p of the padded result. -/
theorem sliceI64_apply (R : FVec Ideal S303104x64 .f32) (p : Fin 100000) (r : Fin 303104) (j : Fin 64) (hr : r.val = 200000 + p.val) :
    sliceI64 R (ix2 p j) = R (ix2 r j) := by
  unfold sliceI64
  refine (sliceRows_apply 200000 _ _ p (⟨200000 + p.val, by omega⟩ : Fin 300000) j rfl).trans ?_
  exact sliceRows_apply 0 R _ (⟨200000 + p.val, by omega⟩ : Fin 300000) r j (by show r.val = 0 + (200000 + p.val); omega)

/-! ## The third layer at an item node -/

/-- Entry (p, j) of the item block of the product is the layer function at item p, feature j. -/
theorem layer2_I (hU aU : FVec Ideal S200000x128 .f32) (hI aI : FVec Ideal S100000x128 .f32) (Ws Wn : FVec Ideal S128x64 .f32)
    (b : FVec Ideal S64 .f32) (p : Fin 100000) (j : Fin 64) :
    sliceI64 (Cert.Sage.affine (xin1 hU aU hI aI) (wcat2 Ws Wn) (brow64 b)) (ix2 p j)
      = Cert.Sage.layerAt hI aI Ws Wn b p j := by
  refine (sliceI64_apply _ p (⟨200000 + p.val, by omega⟩ : Fin 303104) j rfl).trans ?_
  exact Cert.Sage.affine_cat (M := 303104) (K := 256) (O := 64) (Nn := 100000) (D := 128) rfl
    (xin1 hU aU hI aI) (wcat2 Ws Wn) (brow64 b) hI aI Ws Wn b (⟨200000 + p.val, by omega⟩ : Fin 303104) p j
    (fun k => xin1_item_left hU aU hI aI _ p _ k rfl rfl)
    (fun k => xin1_item_right hU aU hI aI _ p _ k rfl rfl)
    (fun k => wcat2_upper Ws Wn _ k j rfl)
    (fun k => wcat2_lower Ws Wn _ k j rfl)
    (brow64_apply b j)

end Cert.KernelIdeal.KV

end
-- ==== Proof.RefLayers.lean ====
/-
  The reference program's three layers read at an entry.

  Each layer of the reference is  (h·Ws + b) + a·Wn  with `h` the nodes' own features and `a` their neighbourhood
  means: two matrix products, the bias placed as one row and repeated down the rows, two additions. Read at node
  `p`, output feature `j`, through the generated stage-by-stage lemmas, that is `Cert.Sage.layerAt h a Ws Wn b p j`
  — the neighbourhood mean staying the stage it is (a gather and a scatter-add, never opened here).
-/
import proofs.«181482_j36249523978328_1_alg».proof.Proof.Gen.ReferenceIdeal.Read
import proofs.«181482_j36249523978328_1_alg».proof.Proof.Spec

set_option maxRecDepth 8192

noncomputable section

namespace Cert.ReferenceIdeal.RefValue

open Cert.ReferenceIdeal Cert.ReferenceIdeal.Read Idealize.ShloMosaic Idealize.ShloMosaic.ValueIdx

/-- An array of a printed buffer type at the ideal reading. -/
abbrev RArr (T : BufTy) := T.Contents (Elt Ideal)

/-- User node `p`, feature `j` of this layer of the reference is the layer function of the layer's inputs. -/
theorem layer0_U (x0 : RArr ⟨S200000x64, .f32⟩) (x1 : RArr ⟨S100000x64, .f32⟩) (x2 : RArr ⟨S1000000, .i32⟩) (x3 : RArr ⟨S1000000, .i32⟩) (x4 : RArr ⟨S64x128, .f32⟩) (x5 : RArr ⟨S64x128, .f32⟩) (x6 : RArr ⟨S128, .f32⟩) (p : Fin 200000) (j : Fin 128) :
    val_main_v30 (F := Ideal) x0 x1 x2 x3 x4 x5 x6 (ix2 p j)
      = Cert.Sage.layerAt (N := 200000) (D := 64) (O := 128) x0 (val_main_v24 (F := Ideal) x1 x2 x3) x5 x4 x6 p j := by
  rw [val_main_v30_apply, val_main_v28_apply, val_main_v29_apply, val_main_v25_apply, val_main_v27_apply, val_main_v26_apply]
  have e1 : ∀ k : Fin 64, lidx_main_v25 (ix2 p j) k = ix2 p k := fun k => funext fun a => by
    match a with | ⟨0, _⟩ => rfl | ⟨1, _⟩ => rfl
  have e2 : ∀ k : Fin 64, ridx_main_v25 (ix2 p j) k = ix2 k j := fun k => funext fun a => by
    match a with | ⟨0, _⟩ => rfl | ⟨1, _⟩ => rfl
  have e3 : ∀ k : Fin 64, lidx_main_v29 (ix2 p j) k = ix2 p k := fun k => funext fun a => by
    match a with | ⟨0, _⟩ => rfl | ⟨1, _⟩ => rfl
  have e4 : ∀ k : Fin 64, ridx_main_v29 (ix2 p j) k = ix2 k j := fun k => funext fun a => by
    match a with | ⟨0, _⟩ => rfl | ⟨1, _⟩ => rfl
  have e5 : idx_main_v26 (idx_main_v27 (ix2 p j)) = ix1 j := funext fun a => by
    match a with | ⟨0, _⟩ => rfl
  simp only [e1, e2, e3, e4, e5]
  rfl

/-- Item node `p`, feature `j` of this layer of the reference is the layer function of the layer's inputs. -/
theorem layer0_I (x0 : RArr ⟨S200000x64, .f32⟩) (x1 : RArr ⟨S100000x64, .f32⟩) (x2 : RArr ⟨S1000000, .i32⟩) (x3 : RArr ⟨S1000000, .i32⟩) (x4 : RArr ⟨S64x128, .f32⟩) (x5 : RArr ⟨S64x128, .f32⟩) (x6 : RArr ⟨S128, .f32⟩) (p : Fin 100000) (j : Fin 128) :
    val_main_v49 (F := Ideal) x0 x1 x2 x3 x4 x5 x6 (ix2 p j)
      = Cert.Sage.layerAt (N := 100000) (D := 64) (O := 128) x1 (val_main_v43 (F := Ideal) x0 x2 x3) x5 x4 x6 p j := by
  rw [val_main_v49_apply, val_main_v47_apply, val_main_v48_apply, val_main_v44_apply, val_main_v46_apply, val_main_v45_apply]
  have e1 : ∀ k : Fin 64, lidx_main_v44 (ix2 p j) k = ix2 p k := fun k => funext fun a => by
    match a with | ⟨0, _⟩ => rfl | ⟨1, _⟩ => rfl
  have e2 : ∀ k : Fin 64, ridx_main_v44 (ix2 p j) k = ix2 k j := fun k => funext fun a => by
    match a with | ⟨0, _⟩ => rfl | ⟨1, _⟩ => rfl
  have e3 : ∀ k : Fin 64, lidx_main_v48 (ix2 p j) k = ix2 p k := fun k => funext fun a => by
    match a with | ⟨0, _⟩ => rfl | ⟨1, _⟩ => rfl
  have e4 : ∀ k : Fin 64, ridx_main_v48 (ix2 p j) k = ix2 k j := fun k => funext fun a => by
    match a with | ⟨0, _⟩ => rfl | ⟨1, _⟩ => rfl
  have e5 : idx_main_v45 (idx_main_v46 (ix2 p j)) = ix1 j := funext fun a => by
    match a with | ⟨0, _⟩ => rfl
  simp only [e1, e2, e3, e4, e5]
  rfl

/-- User node `p`, feature `j` of this layer of the reference is the layer function of the layer's inputs. -/
theorem layer1_U (x0 : RArr ⟨S200000x64, .f32⟩) (x1 : RArr ⟨S100000x64, .f32⟩) (x2 : RArr ⟨S1000000, .i32⟩) (x3 : RArr ⟨S1000000, .i32⟩) (x4 : RArr ⟨S64x128, .f32⟩) (x5 : RArr ⟨S64x128, .f32⟩) (x6 : RArr ⟨S128, .f32⟩) (x7 : RArr ⟨S128x128, .f32⟩) (x8 : RArr ⟨S128x128, .f32⟩) (x9 : RArr ⟨S128, .f32⟩) (p : Fin 200000) (j : Fin 128) :
    val_main_v70 (F := Ideal) x0 x1 x2 x3 x4 x5 x6 x7 x8 x9 (ix2 p j)
      = Cert.Sage.layerAt (N := 200000) (D := 128) (O := 128) (val_main_v50 (F := Ideal) x0 x1 x2 x3 x4 x5 x6) (val_main_v64 (F := Ideal) x0 x1 x2 x3 x4 x5 x6) x8 x7 x9 p j := by
  rw [val_main_v70_apply, val_main_v68_apply, val_main_v69_apply, val_main_v65_apply, val_main_v67_apply, val_main_v66_apply]
  have e1 : ∀ k : Fin 128, lidx_main_v65 (ix2 p j) k = ix2 p k := fun k => funext fun a => by
    match a with | ⟨0, _⟩ => rfl | ⟨1, _⟩ => rfl
  have e2 : ∀ k : Fin 128, ridx_main_v65 (ix2 p j) k = ix2 k j := fun k => funext fun a => by
    match a with | ⟨0, _⟩ => rfl | ⟨1, _⟩ => rfl
  have e3 : ∀ k : Fin 128, lidx_main_v69 (ix2 p j) k = ix2 p k := fun k => funext fun a => by
    match a with | ⟨0, _⟩ => rfl | ⟨1, _⟩ => rfl
  have e4 : ∀ k : Fin 128, ridx_main_v69 (ix2 p j) k = ix2 k j := fun k => funext fun a => by
    match a with | ⟨0, _⟩ => rfl | ⟨1, _⟩ => rfl
  have e5 : idx_main_v66 (idx_main_v67 (ix2 p j)) = ix1 j := funext fun a => by
    match a with | ⟨0, _⟩ => rfl
  simp only [e1, e2, e3, e4, e5]
  rfl

/-- Item node `p`, feature `j` of this layer of the reference is the layer function of the layer's inputs. -/
theorem layer1_I (x0 : RArr ⟨S200000x64, .f32⟩) (x1 : RArr ⟨S100000x64, .f32⟩) (x2 : RArr ⟨S1000000, .i32⟩) (x3 : RArr ⟨S1000000, .i32⟩) (x4 : RArr ⟨S64x128, .f32⟩) (x5 : RArr ⟨S64x128, .f32⟩) (x6 : RArr ⟨S128, .f32⟩) (x7 : RArr ⟨S128x128, .f32⟩) (x8 : RArr ⟨S128x128, .f32⟩) (x9 : RArr ⟨S128, .f32⟩) (p : Fin 100000) (j : Fin 128) :
    val_main_v89 (F := Ideal) x0 x1 x2 x3 x4 x5 x6 x7 x8 x9 (ix2 p j)
      = Cert.Sage.layerAt (N := 100000) (D := 128) (O := 128) (val_main_v51 (F := Ideal) x0 x1 x2 x3 x4 x5 x6) (val_main_v83 (F := Ideal) x0 x1 x2 x3 x4 x5 x6) x8 x7 x9 p j := by
  rw [val_main_v89_apply, val_main_v87_apply, val_main_v88_apply, val_main_v84_apply, val_main_v86_apply, val_main_v85_apply]
  have e1 : ∀ k : Fin 128, lidx_main_v84 (ix2 p j) k = ix2 p k := fun k => funext fun a => by
    match a with | ⟨0, _⟩ => rfl | ⟨1, _⟩ => rfl
  have e2 : ∀ k : Fin 128, ridx_main_v84 (ix2 p j) k = ix2 k j := fun k => funext fun a => by
    match a with | ⟨0, _⟩ => rfl | ⟨1, _⟩ => rfl
  have e3 : ∀ k : Fin 128, lidx_main_v88 (ix2 p j) k = ix2 p k := fun k => funext fun a => by
    match a with | ⟨0, _⟩ => rfl | ⟨1, _⟩ => rfl
  have e4 : ∀ k : Fin 128, ridx_main_v88 (ix2 p j) k = ix2 k j := fun k => funext fun a => by
    match a with | ⟨0, _⟩ => rfl | ⟨1, _⟩ => rfl
  have e5 : idx_main_v85 (idx_main_v86 (ix2 p j)) = ix1 j := funext fun a => by
    match a with | ⟨0, _⟩ => rfl
  simp only [e1, e2, e3, e4, e5]
  rfl

/-- Item node `p`, feature `j` of this layer of the reference is the layer function of the layer's inputs. -/
theorem layer2_I (x0 : RArr ⟨S200000x64, .f32⟩) (x1 : RArr ⟨S100000x64, .f32⟩) (x2 : RArr ⟨S1000000, .i32⟩) (x3 : RArr ⟨S1000000, .i32⟩) (x4 : RArr ⟨S64x128, .f32⟩) (x5 : RArr ⟨S64x128, .f32⟩) (x6 : RArr ⟨S128, .f32⟩) (x7 : RArr ⟨S128x128, .f32⟩) (x8 : RArr ⟨S128x128, .f32⟩) (x9 : RArr ⟨S128, .f32⟩) (x10 : RArr ⟨S128x64, .f32⟩) (x11 : RArr ⟨S128x64, .f32⟩) (x12 : RArr ⟨S64, .f32⟩) (p : Fin 100000) (j : Fin 64) :
    val_main_v129 (F := Ideal) x0 x1 x2 x3 x4 x5 x6 x7 x8 x9 x10 x11 x12 (ix2 p j)
      = Cert.Sage.layerAt (N := 100000) (D := 128) (O := 64) (val_main_v91 (F := Ideal) x0 x1 x2 x3 x4 x5 x6 x7 x8 x9) (val_main_v123 (F := Ideal) x0 x1 x2 x3 x4 x5 x6 x7 x8 x9) x11 x10 x12 p j := by
  rw [val_main_v129_apply, val_main_v127_apply, val_main_v128_apply, val_main_v124_apply, val_main_v126_apply, val_main_v125_apply]
  have e1 : ∀ k : Fin 128, lidx_main_v124 (ix2 p j) k = ix2 p k := fun k => funext fun a => by
    match a with | ⟨0, _⟩ => rfl | ⟨1, _⟩ => rfl
  have e2 : ∀ k : Fin 128, ridx_main_v124 (ix2 p j) k = ix2 k j := fun k => funext fun a => by
    match a with | ⟨0, _⟩ => rfl | ⟨1, _⟩ => rfl
  have e3 : ∀ k : Fin 128, lidx_main_v128 (ix2 p j) k = ix2 p k := fun k => funext fun a => by
    match a with | ⟨0, _⟩ => rfl | ⟨1, _⟩ => rfl
  have e4 : ∀ k : Fin 128, ridx_main_v128 (ix2 p j) k = ix2 k j := fun k => funext fun a => by
    match a with | ⟨0, _⟩ => rfl | ⟨1, _⟩ => rfl
  have e5 : idx_main_v125 (idx_main_v126 (ix2 p j)) = ix1 j := funext fun a => by
    match a with | ⟨0, _⟩ => rfl
  simp only [e1, e2, e3, e4, e5]
  rfl

end Cert.ReferenceIdeal.RefValue

end
-- ==== Proof.Bridge.lean ====
/-
  The kernel program's value is the reference's.

  Layer by layer, at every node and feature: the kernel's padded product over the doubled axis, cut to a node
  set, is the layer function of the layer's inputs (the host layout read at an entry), and so is the reference's
  two-product layer (its stages read at an entry); the layer's inputs are equal by the previous layer, the
  neighbourhood means being the same composition of a gather, a scatter-add and a division on both sides. Three
  layers, the hidden ones rectified on both sides, give the equality of the two results.
-/
import proofs.«181482_j36249523978328_1_alg».proof.Proof.KStages
import proofs.«181482_j36249523978328_1_alg».proof.Proof.Layout0
import proofs.«181482_j36249523978328_1_alg».proof.Proof.Layout1
import proofs.«181482_j36249523978328_1_alg».proof.Proof.Layout2
import proofs.«181482_j36249523978328_1_alg».proof.Proof.RefLayers

set_option maxRecDepth 16384

noncomputable section

namespace Cert.Bridge

open Idealize.ShloMosaic Idealize.ShloMosaic.ValueIdx

/-! ## The neighbourhood means are one composition on both sides -/

theorem aggU64_eq (x1 : FVec Ideal Cert.KernelIdeal.S100000x64 .f32) (x2 : IVec Cert.KernelIdeal.S1000000 32) (x3 : IVec Cert.KernelIdeal.S1000000 32) :
    Cert.KernelIdeal.KV.aggU64 x1 (Cert.KernelIdeal.KV.degU x2) x2 x3 = Cert.ReferenceIdeal.Read.val_main_v24 (F := Ideal) x1 x2 x3 := rfl
theorem aggI64_eq (x0 : FVec Ideal Cert.KernelIdeal.S200000x64 .f32) (x2 : IVec Cert.KernelIdeal.S1000000 32) (x3 : IVec Cert.KernelIdeal.S1000000 32) :
    Cert.KernelIdeal.KV.aggI64 x0 (Cert.KernelIdeal.KV.degI x3) x2 x3 = Cert.ReferenceIdeal.Read.val_main_v43 (F := Ideal) x0 x2 x3 := rfl
theorem aggU128_eq (x0 : FVec Ideal Cert.KernelIdeal.S200000x64 .f32) (x1 : FVec Ideal Cert.KernelIdeal.S100000x64 .f32) (x2 : IVec Cert.KernelIdeal.S1000000 32) (x3 : IVec Cert.KernelIdeal.S1000000 32) (x4 : FVec Ideal Cert.KernelIdeal.S64x128 .f32) (x5 : FVec Ideal Cert.KernelIdeal.S64x128 .f32) (x6 : FVec Ideal Cert.KernelIdeal.S128 .f32) :
    Cert.KernelIdeal.KV.aggU128 (Cert.ReferenceIdeal.Read.val_main_v51 (F := Ideal) x0 x1 x2 x3 x4 x5 x6) (Cert.KernelIdeal.KV.degU x2) x2 x3 = Cert.ReferenceIdeal.Read.val_main_v64 (F := Ideal) x0 x1 x2 x3 x4 x5 x6 := rfl
theorem aggI128_eq (x0 : FVec Ideal Cert.KernelIdeal.S200000x64 .f32) (x1 : FVec Ideal Cert.KernelIdeal.S100000x64 .f32) (x2 : IVec Cert.KernelIdeal.S1000000 32) (x3 : IVec Cert.KernelIdeal.S1000000 32) (x4 : FVec Ideal Cert.KernelIdeal.S64x128 .f32) (x5 : FVec Ideal Cert.KernelIdeal.S64x128 .f32) (x6 : FVec Ideal Cert.KernelIdeal.S128 .f32) :
    Cert.KernelIdeal.KV.aggI128 (Cert.ReferenceIdeal.Read.val_main_v50 (F := Ideal) x0 x1 x2 x3 x4 x5 x6) (Cert.KernelIdeal.KV.degI x3) x2 x3 = Cert.ReferenceIdeal.Read.val_main_v83 (F := Ideal) x0 x1 x2 x3 x4 x5 x6 := rfl
theorem aggI128_eq' (x0 : FVec Ideal Cert.KernelIdeal.S200000x64 .f32) (x1 : FVec Ideal Cert.KernelIdeal.S100000x64 .f32) (x2 : IVec Cert.KernelIdeal.S1000000 32) (x3 : IVec Cert.KernelIdeal.S1000000 32) (x4 : FVec Ideal Cert.KernelIdeal.S64x128 .f32) (x5 : FVec Ideal Cert.KernelIdeal.S64x128 .f32) (x6 : FVec Ideal Cert.KernelIdeal.S128 .f32) (x7 : FVec Ideal Cert.KernelIdeal.S128x128 .f32) (x8 : FVec Ideal Cert.KernelIdeal.S128x128 .f32) (x9 : FVec Ideal Cert.KernelIdeal.S128 .f32) :
    Cert.KernelIdeal.KV.aggI128 (Cert.ReferenceIdeal.Read.val_main_v90 (F := Ideal) x0 x1 x2 x3 x4 x5 x6 x7 x8 x9) (Cert.KernelIdeal.KV.degI x3) x2 x3 = Cert.ReferenceIdeal.Read.val_main_v123 (F := Ideal) x0 x1 x2 x3 x4 x5 x6 x7 x8 x9 := rfl

/-! ## First layer -/

theorem pre0_U (x0 : FVec Ideal Cert.KernelIdeal.S200000x64 .f32) (x1 : FVec Ideal Cert.KernelIdeal.S100000x64 .f32) (x2 : IVec Cert.KernelIdeal.S1000000 32) (x3 : IVec Cert.KernelIdeal.S1000000 32) (x4 : FVec Ideal Cert.KernelIdeal.S64x128 .f32) (x5 : FVec Ideal Cert.KernelIdeal.S64x128 .f32) (x6 : FVec Ideal Cert.KernelIdeal.S128 .f32) : Cert.KernelIdeal.KV.sliceU128 (Cert.KernelIdeal.KV.R0 x0 x1 x2 x3 x4 x5 x6) = Cert.ReferenceIdeal.Read.val_main_v30 (F := Ideal) x0 x1 x2 x3 x4 x5 x6 := by
  funext i
  obtain ⟨p, j, rfl⟩ : ∃ (p : Fin 200000) (j : Fin 128), i = ix2 p j := ⟨i 0, i 1, eq_ix2 i⟩
  unfold Cert.KernelIdeal.KV.R0
  rw [Cert.KernelIdeal.KV.layer0_U, Cert.ReferenceIdeal.RefValue.layer0_U, aggU64_eq]
theorem pre0_I (x0 : FVec Ideal Cert.KernelIdeal.S200000x64 .f32) (x1 : FVec Ideal Cert.KernelIdeal.S100000x64 .f32) (x2 : IVec Cert.KernelIdeal.S1000000 32) (x3 : IVec Cert.KernelIdeal.S1000000 32) (x4 : FVec Ideal Cert.KernelIdeal.S64x128 .f32) (x5 : FVec Ideal Cert.KernelIdeal.S64x128 .f32) (x6 : FVec Ideal Cert.KernelIdeal.S128 .f32) : Cert.KernelIdeal.KV.sliceI128 (Cert.KernelIdeal.KV.R0 x0 x1 x2 x3 x4 x5 x6) = Cert.ReferenceIdeal.Read.val_main_v49 (F := Ideal) x0 x1 x2 x3 x4 x5 x6 := by
  funext i
  obtain ⟨p, j, rfl⟩ : ∃ (p : Fin 100000) (j : Fin 128), i = ix2 p j := ⟨i 0, i 1, eq_ix2 i⟩
  unfold Cert.KernelIdeal.KV.R0
  rw [Cert.KernelIdeal.KV.layer0_I, Cert.ReferenceIdeal.RefValue.layer0_I, aggI64_eq]
/-- The rectified first layer, users and items. -/
theorem hidden0_U (x0 : FVec Ideal Cert.KernelIdeal.S200000x64 .f32) (x1 : FVec Ideal Cert.KernelIdeal.S100000x64 .f32) (x2 : IVec Cert.KernelIdeal.S1000000 32) (x3 : IVec Cert.KernelIdeal.S1000000 32) (x4 : FVec Ideal Cert.KernelIdeal.S64x128 .f32) (x5 : FVec Ideal Cert.KernelIdeal.S64x128 .f32) (x6 : FVec Ideal Cert.KernelIdeal.S128 .f32) : Cert.KernelIdeal.KV.reluU (Cert.KernelIdeal.KV.sliceU128 (Cert.KernelIdeal.KV.R0 x0 x1 x2 x3 x4 x5 x6)) = Cert.ReferenceIdeal.Read.val_main_v50 (F := Ideal) x0 x1 x2 x3 x4 x5 x6 := by
  rw [pre0_U]; rfl
theorem hidden0_I (x0 : FVec Ideal Cert.KernelIdeal.S200000x64 .f32) (x1 : FVec Ideal Cert.KernelIdeal.S100000x64 .f32) (x2 : IVec Cert.KernelIdeal.S1000000 32) (x3 : IVec Cert.KernelIdeal.S1000000 32) (x4 : FVec Ideal Cert.KernelIdeal.S64x128 .f32) (x5 : FVec Ideal Cert.KernelIdeal.S64x128 .f32) (x6 : FVec Ideal Cert.KernelIdeal.S128 .f32) : Cert.KernelIdeal.KV.reluI (Cert.KernelIdeal.KV.sliceI128 (Cert.KernelIdeal.KV.R0 x0 x1 x2 x3 x4 x5 x6)) = Cert.ReferenceIdeal.Read.val_main_v51 (F := Ideal) x0 x1 x2 x3 x4 x5 x6 := by
  rw [pre0_I]; rfl

/-! ## Second layer -/

theorem pre1_U (x0 : FVec Ideal Cert.KernelIdeal.S200000x64 .f32) (x1 : FVec Ideal Cert.KernelIdeal.S100000x64 .f32) (x2 : IVec Cert.KernelIdeal.S1000000 32) (x3 : IVec Cert.KernelIdeal.S1000000 32) (x4 : FVec Ideal Cert.KernelIdeal.S64x128 .f32) (x5 : FVec Ideal Cert.KernelIdeal.S64x128 .f32) (x6 : FVec Ideal Cert.KernelIdeal.S128 .f32) (x7 : FVec Ideal Cert.KernelIdeal.S128x128 .f32) (x8 : FVec Ideal Cert.KernelIdeal.S128x128 .f32) (x9 : FVec Ideal Cert.KernelIdeal.S128 .f32) : Cert.KernelIdeal.KV.sliceU128 (Cert.KernelIdeal.KV.R1 (Cert.KernelIdeal.KV.R0 x0 x1 x2 x3 x4 x5 x6) x2 x3 x7 x8 x9) = Cert.ReferenceIdeal.Read.val_main_v70 (F := Ideal) x0 x1 x2 x3 x4 x5 x6 x7 x8 x9 := by
  funext i
  obtain ⟨p, j, rfl⟩ : ∃ (p : Fin 200000) (j : Fin 128), i = ix2 p j := ⟨i 0, i 1, eq_ix2 i⟩
  unfold Cert.KernelIdeal.KV.R1
  rw [Cert.KernelIdeal.KV.layer1_U, hidden0_U, hidden0_I, aggU128_eq, Cert.ReferenceIdeal.RefValue.layer1_U]
theorem pre1_I (x0 : FVec Ideal Cert.KernelIdeal.S200000x64 .f32) (x1 : FVec Ideal Cert.KernelIdeal.S100000x64 .f32) (x2 : IVec Cert.KernelIdeal.S1000000 32) (x3 : IVec Cert.KernelIdeal.S1000000 32) (x4 : FVec Ideal Cert.KernelIdeal.S64x128 .f32) (x5 : FVec Ideal Cert.KernelIdeal.S64x128 .f32) (x6 : FVec Ideal Cert.KernelIdeal.S128 .f32) (x7 : FVec Ideal Cert.KernelIdeal.S128x128 .f32) (x8 : FVec Ideal Cert.KernelIdeal.S128x128 .f32) (x9 : FVec Ideal Cert.KernelIdeal.S128 .f32) : Cert.KernelIdeal.KV.sliceI128 (Cert.KernelIdeal.KV.R1 (Cert.KernelIdeal.KV.R0 x0 x1 x2 x3 x4 x5 x6) x2 x3 x7 x8 x9) = Cert.ReferenceIdeal.Read.val_main_v89 (F := Ideal) x0 x1 x2 x3 x4 x5 x6 x7 x8 x9 := by
  funext i
  obtain ⟨p, j, rfl⟩ : ∃ (p : Fin 100000) (j : Fin 128), i = ix2 p j := ⟨i 0, i 1, eq_ix2 i⟩
  unfold Cert.KernelIdeal.KV.R1
  rw [Cert.KernelIdeal.KV.layer1_I, hidden0_U, hidden0_I, aggI128_eq, Cert.ReferenceIdeal.RefValue.layer1_I]
/-- The rectified second layer, users and items. -/
theorem hidden1_U (x0 : FVec Ideal Cert.KernelIdeal.S200000x64 .f32) (x1 : FVec Ideal Cert.KernelIdeal.S100000x64 .f32) (x2 : IVec Cert.KernelIdeal.S1000000 32) (x3 : IVec Cert.KernelIdeal.S1000000 32) (x4 : FVec Ideal Cert.KernelIdeal.S64x128 .f32) (x5 : FVec Ideal Cert.KernelIdeal.S64x128 .f32) (x6 : FVec Ideal Cert.KernelIdeal.S128 .f32) (x7 : FVec Ideal Cert.KernelIdeal.S128x128 .f32) (x8 : FVec Ideal Cert.KernelIdeal.S128x128 .f32) (x9 : FVec Ideal Cert.KernelIdeal.S128 .f32) : Cert.KernelIdeal.KV.reluU (Cert.KernelIdeal.KV.sliceU128 (Cert.KernelIdeal.KV.R1 (Cert.KernelIdeal.KV.R0 x0 x1 x2 x3 x4 x5 x6) x2 x3 x7 x8 x9)) = Cert.ReferenceIdeal.Read.val_main_v90 (F := Ideal) x0 x1 x2 x3 x4 x5 x6 x7 x8 x9 := by
  rw [pre1_U]; rfl
theorem hidden1_I (x0 : FVec Ideal Cert.KernelIdeal.S200000x64 .f32) (x1 : FVec Ideal Cert.KernelIdeal.S100000x64 .f32) (x2 : IVec Cert.KernelIdeal.S1000000 32) (x3 : IVec Cert.KernelIdeal.S1000000 32) (x4 : FVec Ideal Cert.KernelIdeal.S64x128 .f32) (x5 : FVec Ideal Cert.KernelIdeal.S64x128 .f32) (x6 : FVec Ideal Cert.KernelIdeal.S128 .f32) (x7 : FVec Ideal Cert.KernelIdeal.S128x128 .f32) (x8 : FVec Ideal Cert.KernelIdeal.S128x128 .f32) (x9 : FVec Ideal Cert.KernelIdeal.S128 .f32) : Cert.KernelIdeal.KV.reluI (Cert.KernelIdeal.KV.sliceI128 (Cert.KernelIdeal.KV.R1 (Cert.KernelIdeal.KV.R0 x0 x1 x2 x3 x4 x5 x6) x2 x3 x7 x8 x9)) = Cert.ReferenceIdeal.Read.val_main_v91 (F := Ideal) x0 x1 x2 x3 x4 x5 x6 x7 x8 x9 := by
  rw [pre1_I]; rfl

/-! ## Third layer: the result -/

/-- The kernel program's value is the reference's result stage. -/
theorem value_eq (x0 : FVec Ideal Cert.KernelIdeal.S200000x64 .f32) (x1 : FVec Ideal Cert.KernelIdeal.S100000x64 .f32) (x2 : IVec Cert.KernelIdeal.S1000000 32) (x3 : IVec Cert.KernelIdeal.S1000000 32) (x4 : FVec Ideal Cert.KernelIdeal.S64x128 .f32) (x5 : FVec Ideal Cert.KernelIdeal.S64x128 .f32) (x6 : FVec Ideal Cert.KernelIdeal.S128 .f32) (x7 : FVec Ideal Cert.KernelIdeal.S128x128 .f32) (x8 : FVec Ideal Cert.KernelIdeal.S128x128 .f32) (x9 : FVec Ideal Cert.KernelIdeal.S128 .f32) (x10 : FVec Ideal Cert.KernelIdeal.S128x64 .f32) (x11 : FVec Ideal Cert.KernelIdeal.S128x64 .f32) (x12 : FVec Ideal Cert.KernelIdeal.S64 .f32) :
    Cert.KernelIdeal.KV.kernelValue x0 x1 x2 x3 x4 x5 x6 x7 x8 x9 x10 x11 x12 = Cert.ReferenceIdeal.Read.val_main_v129 (F := Ideal) x0 x1 x2 x3 x4 x5 x6 x7 x8 x9 x10 x11 x12 := by
  funext i
  obtain ⟨p, j, rfl⟩ : ∃ (p : Fin 100000) (j : Fin 64), i = ix2 p j := ⟨i 0, i 1, eq_ix2 i⟩
  unfold Cert.KernelIdeal.KV.kernelValue Cert.KernelIdeal.KV.R2
  rw [Cert.KernelIdeal.KV.layer2_I, hidden1_U, hidden1_I, aggI128_eq', Cert.ReferenceIdeal.RefValue.layer2_I]

end Cert.Bridge

end
-- ==== Proof.lean ====
/-
  A three-layer mean-aggregating graph network on a two-sided graph (users and items joined by an edge list),
  returning the item embeddings: the kernel program against the plain reference, at the ideal reading.

  Each layer maps every node's own features h and the mean a of its neighbours' features to
      (h·Ws + b) + a·Wn.
  The reference computes exactly that, users and items separately, with two matrix products per node set. The
  kernel program lays [h | a] of the users above [h | a] of the items, pads the rows to a multiple of 4096, lays
  Ws above Wn, and computes ONE product over the doubled axis with the bias row added, in a pallas region of 74 row
  blocks; then cuts the padding off and splits users from items. The two agree entry by entry because a sum over
  2D positions is the sum of its halves and addition of extended reals is commutative and associative — no
  distributivity, so no finiteness of the inputs is used. The neighbourhood means (a gather along one end of the
  edges, a scatter-add at the other, a division by the clamped degree) are the same composition in both programs.

  The modules: Spec (the layer as a function, and the doubled-axis identity), KStages (the kernel program's host
  stages as functions), Region0–2 (each pallas region's output array is the product with the bias row, from its
  74 blocks), HostVals (what each host line leaves in the buffers the products read), KernelRun and KernelValue
  (the run with its result named, and the result as one function of the arguments), Layout0–2 over LibLayoutRead
  (the host layout read at an entry), RefLayers (the reference's layers read at an entry), Bridge (the two values
  are equal). Here: the five claims.
-/
import proofs.«181482_j36249523978328_1_alg».proof.Defs
import proofs.«181482_j36249523978328_1_alg».proof.Proof.Gen.Kernel
import proofs.«181482_j36249523978328_1_alg».proof.Proof.Gen.Kernel.Skeleton
import proofs.«181482_j36249523978328_1_alg».proof.Proof.Gen.Kernel.Launch
import proofs.«181482_j36249523978328_1_alg».proof.Proof.Gen.Kernel.Points
import proofs.«181482_j36249523978328_1_alg».proof.Proof.Gen.Kernel.Frame
import proofs.«181482_j36249523978328_1_alg».proof.Proof.Gen.KernelIdeal
import proofs.«181482_j36249523978328_1_alg».proof.Proof.Gen.KernelIdeal.Skeleton
import proofs.«181482_j36249523978328_1_alg».proof.Proof.Gen.KernelIdeal.Launch
import proofs.«181482_j36249523978328_1_alg».proof.Proof.Gen.KernelIdeal.Points
import proofs.«181482_j36249523978328_1_alg».proof.Proof.Gen.KernelIdeal.Frame
import proofs.«181482_j36249523978328_1_alg».proof.Proof.Gen.ReferenceIdeal
import proofs.«181482_j36249523978328_1_alg».proof.Proof.Gen.Pre_finite_inputs
import proofs.«181482_j36249523978328_1_alg».proof.Proof.Gen.ReferenceIdeal.Run
import proofs.«181482_j36249523978328_1_alg».proof.Proof.Gen.ReferenceIdeal.Read
import proofs.«181482_j36249523978328_1_alg».proof.Proof.KernelValue
import proofs.«181482_j36249523978328_1_alg».proof.Proof.Bridge
import Idealize.ShloMosaic.Adequacy
import Idealize.ShloMosaic.Init

set_option maxRecDepth 16384

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same item embeddings: the kernel
    program's result is `kernelValue` of the arguments, the reference's is its last stage, and the two are equal. -/
theorem algebraic : Cert.algebraic_KernelIdeal_ReferenceIdeal := by
  intro m ρ m' ρ' _ hagree
  refine ⟨fun c => Cert.KernelIdeal.KV.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KVal.result m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v129_eq, h0, h1, h2, h3, h4, h5, h6, h7, h8, h9, h10, h11, h12]
    exact (Cert.Bridge.value_eq _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
